-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x150x150 : Shape := ⟨3, ![2048, 150, 150]⟩
abbrev S2048x150 : Shape := ⟨2, ![2048, 150]⟩
abbrev S_ : Shape := ⟨0, ![]⟩

class Facts : Prop where
  bcast_S_S2048x150x150 : S_.BroadcastsInDim S2048x150x150 (![] : Fin 0 → Fin S2048x150x150.rank)
  reducesTo_S2048x150x150_S_d0_1_2 : S2048x150x150.ReducesTo [0, 1, 2] S_
  h_S_ : 0 < S_.numel

variable [Facts]

def fn {F : FTy → Type} [FloatOps F] (main_arg0 : FVec F S2048x150x150 .f32) (main_arg1 : FVec F S2048x150x150 .f32) (main_arg2 : IVec S2048x150 32) (main_arg3 : IVec S2048x150 32) : IVec S_ 1 :=
  let main_v0 : FVec F S2048x150x150 .f32 := Host.absf main_arg0
  let main_cst : FVec F S_ .f32 := constant S_ .f32 0x7F800000#32
  let main_v1 : FVec F S2048x150x150 .f32 := broadcastInDim S2048x150x150 ![] bcast_S_S2048x150x150 main_cst
  let main_v2 : IVec S2048x150x150 1 := cmpf .olt main_v0 main_v1
  let main_c : IVec S_ 1 := constantI S_ 1 1#1
  let main_v3 : IVec S_ 1 := (fun x v => Host.reduce IntOp.andi x v reducesTo_S2048x150x150_S_d0_1_2 h_S_) main_v2 main_c
  let main_v4 : FVec F S2048x150x150 .f32 := Host.absf main_arg1
  let main_cst_0 : FVec F S_ .f32 := constant S_ .f32 0x7F800000#32
  let main_v5 : FVec F S2048x150x150 .f32 := broadcastInDim S2048x150x150 ![] bcast_S_S2048x150x150 main_cst_0
  let main_v6 : IVec S2048x150x150 1 := cmpf .olt main_v4 main_v5
  let main_c_1 : IVec S_ 1 := constantI S_ 1 1#1
  let main_v7 : IVec S_ 1 := (fun x v => Host.reduce IntOp.andi x v reducesTo_S2048x150x150_S_d0_1_2 h_S_) main_v6 main_c_1
  let main_v8 : IVec S_ 1 := andi main_v3 main_v7
  main_v8
-- ==== Kernel.lean ====
abbrev S2048x150x150 : Shape := ⟨3, ![2048, 150, 150]⟩
abbrev S2048x150 : Shape := ⟨2, ![2048, 150]⟩
abbrev S2048x150x1 : Shape := ⟨3, ![2048, 150, 1]⟩
abbrev S2048x1x150 : Shape := ⟨3, ![2048, 1, 150]⟩
abbrev S16x150x150 : Shape := ⟨3, ![16, 150, 150]⟩
abbrev S16x150 : Shape := ⟨2, ![16, 150]⟩
abbrev S16x150x1 : Shape := ⟨3, ![16, 150, 1]⟩
abbrev S16x1x150 : Shape := ⟨3, ![16, 1, 150]⟩
abbrev S16 : Shape := ⟨1, ![16]⟩
abbrev S16x1 : Shape := ⟨2, ![16, 1]⟩

abbrev nBuf : Space → Nat
  | .hbm => 8
  | .vmem => 16
  | .smem => 0
  | _ => 0

abbrev bufTy : (tb : Table) → Fin (tcTables nBuf tb) → BufTy
  | .hbm, ⟨0, _⟩ => ⟨S2048x150x150, .f32⟩
  | .hbm, ⟨1, _⟩ => ⟨S2048x150x150, .f32⟩
  | .hbm, ⟨2, _⟩ => ⟨S2048x150, .i32⟩
  | .hbm, ⟨3, _⟩ => ⟨S2048x150, .i32⟩
  | .hbm, ⟨4, _⟩ => ⟨S2048x150, .f32⟩
  | .hbm, ⟨5, _⟩ => ⟨S2048x150, .f32⟩
  | .hbm, ⟨6, _⟩ => ⟨S2048x150x1, .f32⟩
  | .hbm, ⟨7, _⟩ => ⟨S2048x1x150, .f32⟩
  | .local _ .vmem, ⟨0, _⟩ => ⟨S16x150x150, .f32⟩
  | .local _ .vmem, ⟨1, _⟩ => ⟨S16x150x150, .f32⟩
  | .local _ .vmem, ⟨2, _⟩ => ⟨S16x150x150, .f32⟩
  | .local _ .vmem, ⟨3, _⟩ => ⟨S16x150x150, .f32⟩
  | .local _ .vmem, ⟨4, _⟩ => ⟨S16x150, .i32⟩
  | .local _ .vmem, ⟨5, _⟩ => ⟨S16x150, .i32⟩
  | .local _ .vmem, ⟨6, _⟩ => ⟨S16x150, .i32⟩
  | .local _ .vmem, ⟨7, _⟩ => ⟨S16x150, .i32⟩
  | .local _ .vmem, ⟨8, _⟩ => ⟨S16x150, .f32⟩
  | .local _ .vmem, ⟨9, _⟩ => ⟨S16x150, .f32⟩
  | .local _ .vmem, ⟨10, _⟩ => ⟨S16x150, .f32⟩
  | .local _ .vmem, ⟨11, _⟩ => ⟨S16x150, .f32⟩
  | .local _ .vmem, ⟨12, _⟩ => ⟨S16x150x1, .f32⟩
  | .local _ .vmem, ⟨13, _⟩ => ⟨S16x150x1, .f32⟩
  | .local _ .vmem, ⟨14, _⟩ => ⟨S16x1x150, .f32⟩
  | .local _ .vmem, ⟨15, _⟩ => ⟨S16x1x150, .f32⟩
  | _, _ => ⟨S2048x150x150, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x150x150 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x150x150 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x150 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x150 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x150 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x150 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x150x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1x150 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S16x150x150_S16x150x150_0_0_0 : ∀ a, (![0, 0, 0] : Fin 3 → Nat) a + S16x150x150.size a ≤ S16x150x150.size a
  h_S16x150x150 : 0 < S16x150x150.numel
  inb_S16x150_S16x150_0_0 : ∀ a, (![0, 0] : Fin 2 → Nat) a + S16x150.size a ≤ S16x150.size a
  h_S16x150 : 0 < S16x150.numel
  reduces_S16x150_S16 : S16x150.Reduces [1] S16
  shapeCasts_S16_S16x1 : S16.ShapeCasts S16x1
  shapeCasts_S16x150_S16x150x1 : S16x150.ShapeCasts S16x150x1
  broadcasts_S16x150x1_S16x150x150 : S16x150x1.Broadcasts S16x150x150
  bitsLt_bf16_f32 : FTy.bits .bf16 < FTy.bits .f32
  reduces_S16x150x150_S16x150 : S16x150x150.Reduces [1] S16x150
  shapeCasts_S16x150_S16x1x150 : S16x150.ShapeCasts S16x1x150
  broadcasts_S16x1x150_S16x150x150 : S16x1x150.Broadcasts S16x150x150
  reduces_S16x150x150_S16x150_2 : S16x150x150.Reduces [2] S16x150
  shapeCasts_S16x1x150_S16x150 : S16x1x150.ShapeCasts S16x150
  broadcasts_S16x1_S16x150 : S16x1.Broadcasts S16x150
  inb_S16x150x1_S16x150x1_0_0_0 : ∀ a, (![0, 0, 0] : Fin 3 → Nat) a + S16x150x1.size a ≤ S16x150x1.size a
  h_S16x150x1 : 0 < S16x150x1.numel
  inb_S16x1x150_S16x1x150_0_0_0 : ∀ a, (![0, 0, 0] : Fin 3 → Nat) a + S16x1x150.size a ≤ S16x1x150.size a
  h_S16x1x150 : 0 < S16x1x150.numel
  dot_S16x150x150_S16x150x150_S16x150x150_2_2_1_1_0_0_wf : DotDims.WF S16x150x150 S16x150x150 S16x150x150 [2] [2] [1] [1] [0] [0]
  dot_S16x1x150_S16x150x150_S16x1x150_2_2_1_1_0_0_wf : DotDims.WF S16x1x150 S16x150x150 S16x1x150 [2] [2] [1] [1] [0] [0]
  dot_S16x150x1_S16x150x150_S16x1x150_1_1_2_2_0_0_wf : DotDims.WF S16x150x1 S16x150x150 S16x1x150 [1] [1] [2] [2] [0] [0]
  dot_S16x1x150_S16x150x150_S16x1x150_2_1_1_2_0_0_wf : DotDims.WF S16x1x150 S16x150x150 S16x1x150 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x150x150.size a ≤ S2048x150x150.size a
  hwx0_0 : ∀ i : grid0.Coords, EltTy.bits .f32 = 32 ∨ (Rect.block (s := S2048x150x150) S16x150x150.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x150x150.size a ≤ S2048x150x150.size a
  hwx0_1 : ∀ i : grid0.Coords, EltTy.bits .f32 = 32 ∨ (Rect.block (s := S2048x150x150) S16x150x150.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x150.size a ≤ S2048x150.size a
  hwx0_2 : ∀ i : grid0.Coords, EltTy.bits .i32 = 32 ∨ (Rect.block (s := S2048x150) S16x150.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x150.size a ≤ S2048x150.size a
  hwx0_3 : ∀ i : grid0.Coords, EltTy.bits .i32 = 32 ∨ (Rect.block (s := S2048x150) S16x150.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x150.size a ≤ S2048x150.size a
  hwx0_4 : ∀ i : grid0.Coords, EltTy.bits .f32 = 32 ∨ (Rect.block (s := S2048x150) S16x150.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x150.size a ≤ S2048x150.size a
  hwx0_5 : ∀ i : grid0.Coords, EltTy.bits .f32 = 32 ∨ (Rect.block (s := S2048x150) S16x150.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x150x1.size a ≤ S2048x150x1.size a
  hwx0_6 : ∀ i : grid0.Coords, EltTy.bits .f32 = 32 ∨ (Rect.block (s := S2048x150x1) S16x150x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x1x150.size a ≤ S2048x1x150.size a
  hwx0_7 : ∀ i : grid0.Coords, EltTy.bits .f32 = 32 ∨ (Rect.block (s := S2048x1x150) S16x1x150.size (cc0_transform_7 i) (hinb0_7 i)).WholeWords (EltTy.packing .f32)

variable [Facts₀]

def dot_S16x150x150_S16x150x150_S16x150x150_2_2_1_1_0_0 : DotDims S16x150x150 S16x150x150 S16x150x150 where
  lhsContracting := [2]
  rhsContracting := [2]
  lhsNonContracting := [1]
  rhsNonContracting := [1]
  lhsBatch := [0]
  rhsBatch := [0]
  wf := dot_S16x150x150_S16x150x150_S16x150x150_2_2_1_1_0_0_wf
def dot_S16x1x150_S16x150x150_S16x1x150_2_2_1_1_0_0 : DotDims S16x1x150 S16x150x150 S16x1x150 where
  lhsContracting := [2]
  rhsContracting := [2]
  lhsNonContracting := [1]
  rhsNonContracting := [1]
  lhsBatch := [0]
  rhsBatch := [0]
  wf := dot_S16x1x150_S16x150x150_S16x1x150_2_2_1_1_0_0_wf
def dot_S16x150x1_S16x150x150_S16x1x150_1_1_2_2_0_0 : DotDims S16x150x1 S16x150x150 S16x1x150 where
  lhsContracting := [1]
  rhsContracting := [1]
  lhsNonContracting := [2]
  rhsNonContracting := [2]
  lhsBatch := [0]
  rhsBatch := [0]
  wf := dot_S16x150x1_S16x150x150_S16x1x150_1_1_2_2_0_0_wf
def dot_S16x1x150_S16x150x150_S16x1x150_2_1_1_2_0_0 : DotDims S16x1x150 S16x150x150 S16x1x150 where
  lhsContracting := [2]
  rhsContracting := [1]
  lhsNonContracting := [1]
  rhsNonContracting := [2]
  lhsBatch := [0]
  rhsBatch := [0]
  wf := dot_S16x1x150_S16x150x150_S16x1x150_2_1_1_2_0_0_wf

abbrev win0_0 : Pipeline.Window sig grid0 :=
  Pipeline.Window.ofSpec (Memref.whole main_arg0) S16x150x150.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x150x150.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x150.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x150.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S16x150.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S16x150.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S16x150x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_3) S16x1x150.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x150x150 : Shape := ⟨3, ![2048, 150, 150]⟩
abbrev S2048x150 : Shape := ⟨2, ![2048, 150]⟩
abbrev S_ : Shape := ⟨0, ![]⟩
abbrev S2048 : Shape := ⟨1, ![2048]⟩
abbrev S2048x150x1 : Shape := ⟨3, ![2048, 150, 1]⟩
abbrev S2048x1x150 : Shape := ⟨3, ![2048, 1, 150]⟩
abbrev S2048x1 : Shape := ⟨2, ![2048, 1]⟩

abbrev nBuf : Space → Nat
  | .hbm => 69
  | .vmem => 0
  | .smem => 0
  | _ => 0

abbrev bufTy : (tb : Table) → Fin (tcTables nBuf tb) → BufTy
  | .hbm, ⟨0, _⟩ => ⟨S2048x150x150, .f32⟩
  | .hbm, ⟨1, _⟩ => ⟨S2048x150x150, .f32⟩
  | .hbm, ⟨2, _⟩ => ⟨S2048x150, .i32⟩
  | .hbm, ⟨3, _⟩ => ⟨S2048x150, .i32⟩
  | .hbm, ⟨4, _⟩ => ⟨S2048x150, .f32⟩
  | .hbm, ⟨5, _⟩ => ⟨S2048x150, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048x150x1, .f32⟩
  | .hbm, ⟨11, _⟩ => ⟨S2048x150x150, .f32⟩
  | .hbm, ⟨12, _⟩ => ⟨S2048x150x150, .f32⟩
  | .hbm, ⟨13, _⟩ => ⟨S2048x150x1, .f32⟩
  | .hbm, ⟨14, _⟩ => ⟨S2048x150x150, .f32⟩
  | .hbm, ⟨15, _⟩ => ⟨S2048x150x150, .f32⟩
  | .hbm, ⟨16, _⟩ => ⟨S2048x150x150, .f32⟩
  | .hbm, ⟨17, _⟩ => ⟨S_, .f32⟩
  | .hbm, ⟨18, _⟩ => ⟨S2048x150, .f32⟩
  | .hbm, ⟨19, _⟩ => ⟨S_, .f32⟩
  | .hbm, ⟨20, _⟩ => ⟨S2048x150, .f32⟩
  | .hbm, ⟨21, _⟩ => ⟨S2048x150, .f32⟩
  | .hbm, ⟨22, _⟩ => ⟨S2048x1x150, .f32⟩
  | .hbm, ⟨23, _⟩ => ⟨S2048x150x150, .f32⟩
  | .hbm, ⟨24, _⟩ => ⟨S2048x150x150, .f32⟩
  | .hbm, ⟨25, _⟩ => ⟨S2048x150x150, .f32⟩
  | .hbm, ⟨26, _⟩ => ⟨S_, .f32⟩
  | .hbm, ⟨27, _⟩ => ⟨S2048x150, .f32⟩
  | .hbm, ⟨28, _⟩ => ⟨S2048x1x150, .f32⟩
  | .hbm, ⟨29, _⟩ => ⟨S2048x150x150, .f32⟩
  | .hbm, ⟨30, _⟩ => ⟨S2048x150x150, .f32⟩
  | .hbm, ⟨31, _⟩ => ⟨S_, .f32⟩
  | .hbm, ⟨32, _⟩ => ⟨S2048x150, .f32⟩
  | .hbm, ⟨33, _⟩ => ⟨S_, .f32⟩
  | .hbm, ⟨34, _⟩ => ⟨S2048x150, .f32⟩
  | .hbm, ⟨35, _⟩ => ⟨S2048x150, .f32⟩
  | .hbm, ⟨36, _⟩ => ⟨S2048x150x1, .f32⟩
  | .hbm, ⟨37, _⟩ => ⟨S2048x150x150, .f32⟩
  | .hbm, ⟨38, _⟩ => ⟨S2048x150x150, .f32⟩
  | .hbm, ⟨39, _⟩ => ⟨S2048x150x150, .f32⟩
  | .hbm, ⟨40, _⟩ => ⟨S_, .f32⟩
  | .hbm, ⟨41, _⟩ => ⟨S2048x150, .f32⟩
  | .hbm, ⟨42, _⟩ => ⟨S2048x150x1, .f32⟩
  | .hbm, ⟨43, _⟩ => ⟨S2048x150x150, .f32⟩
  | .hbm, ⟨44, _⟩ => ⟨S2048x150x150, .f32⟩
  | .hbm, ⟨45, _⟩ => ⟨S_, .f32⟩
  | .hbm, ⟨46, _⟩ => ⟨S2048x150, .f32⟩
  | .hbm, ⟨47, _⟩ => ⟨S2048x150x1, .f32⟩
  | .hbm, ⟨48, _⟩ => ⟨S_, .f32⟩
  | .hbm, ⟨49, _⟩ => ⟨S2048x150x1, .f32⟩
  | .hbm, ⟨50, _⟩ => ⟨S2048x150x1, .f32⟩
  | .hbm, ⟨51, _⟩ => ⟨S_, .f32⟩
  | .hbm, ⟨52, _⟩ => ⟨S2048x150, .f32⟩
  | .hbm, ⟨53, _⟩ => ⟨S2048x1x150, .f32⟩
  | .hbm, ⟨54, _⟩ => ⟨S_, .f32⟩
  | .hbm, ⟨55, _⟩ => ⟨S2048x1x150, .f32⟩
  | .hbm, ⟨56, _⟩ => ⟨S2048x1x150, .f32⟩
  | .hbm, ⟨57, _⟩ => ⟨S2048x1x150, .f32⟩
  | .hbm, ⟨58, _⟩ => ⟨S2048x1x150, .f32⟩
  | .hbm, ⟨59, _⟩ => ⟨S2048x1x150, .f32⟩
  | .hbm, ⟨60, _⟩ => ⟨S2048x150, .f32⟩
  | .hbm, ⟨61, _⟩ => ⟨S2048x1x150, .f32⟩
  | .hbm, ⟨62, _⟩ => ⟨S2048x150, .f32⟩
  | .hbm, ⟨63, _⟩ => ⟨S2048x1, .f32⟩
  | .hbm, ⟨64, _⟩ => ⟨S2048x150, .f32⟩
  | .hbm, ⟨65, _⟩ => ⟨S2048x150, .f32⟩
  | .hbm, ⟨66, _⟩ => ⟨S2048x1, .f32⟩
  | .hbm, ⟨67, _⟩ => ⟨S2048x150, .f32⟩
  | .hbm, ⟨68, _⟩ => ⟨S2048x150, .f32⟩
  | _, _ => ⟨S2048x150x150, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]

class Facts₀ : Prop where
  reducesTo_S2048x150_S2048_d1 : S2048x150.ReducesTo [1] S2048
  h_S_ : 0 < S_.numel
  bcast_S2048x150_S2048x150x1_0_1 : S2048x150.BroadcastsInDim S2048x150x1 (![0, 1] : Fin 2 → Fin S2048x150x1.rank)
  bcast_S2048x150x1_S2048x150x150_0_1_2 : S2048x150x1.BroadcastsInDim S2048x150x150 (![0, 1, 2] : Fin 3 → Fin S2048x150x150.rank)
  reducesTo_S2048x150x150_S2048x150_d1 : S2048x150x150.ReducesTo [1] S2048x150
  bcast_S_S2048x150 : S_.BroadcastsInDim S2048x150 (![] : Fin 0 → Fin S2048x150.rank)
  bcast_S2048x150_S2048x1x150_0_2 : S2048x150.BroadcastsInDim S2048x1x150 (![0, 2] : Fin 2 → Fin S2048x1x150.rank)
  bcast_S2048x1x150_S2048x150x150_0_1_2 : S2048x1x150.BroadcastsInDim S2048x150x150 (![0, 1, 2] : Fin 3 → Fin S2048x150x150.rank)
  reducesTo_S2048x150x150_S2048x150_d2 : S2048x150x150.ReducesTo [2] S2048x150
  bcast_S_S2048x150x1 : S_.BroadcastsInDim S2048x150x1 (![] : Fin 0 → Fin S2048x150x1.rank)
  bcast_S_S2048x1x150 : S_.BroadcastsInDim S2048x1x150 (![] : Fin 0 → Fin S2048x1x150.rank)
  shapeCasts_S2048x1x150_S2048x150 : S2048x1x150.ShapeCasts S2048x150
  bcast_S2048_S2048x1_0 : S2048.BroadcastsInDim S2048x1 (![0] : Fin 1 → Fin S2048x1.rank)
  bcast_S2048x1_S2048x150_0_1 : S2048x1.BroadcastsInDim S2048x150 (![0, 1] : Fin 2 → Fin S2048x150.rank)
  dot_S2048x150x150_S2048x150x150_S2048x150x150_2_2_1_1_0_0_wf : DotDims.WF S2048x150x150 S2048x150x150 S2048x150x150 [2] [2] [1] [1] [0] [0]
  dot_S2048x1x150_S2048x150x150_S2048x1x150_2_2_1_1_0_0_wf : DotDims.WF S2048x1x150 S2048x150x150 S2048x1x150 [2] [2] [1] [1] [0] [0]
  dot_S2048x150x1_S2048x150x150_S2048x1x150_1_1_2_2_0_0_wf : DotDims.WF S2048x150x1 S2048x150x150 S2048x1x150 [1] [1] [2] [2] [0] [0]
  dot_S2048x1x150_S2048x150x150_S2048x1x150_2_1_1_2_0_0_wf : DotDims.WF S2048x1x150 S2048x150x150 S2048x1x150 [2] [1] [1] [2] [0] [0]

variable [Facts₀]

def dot_S2048x150x150_S2048x150x150_S2048x150x150_2_2_1_1_0_0 : DotDims S2048x150x150 S2048x150x150 S2048x150x150 where
  lhsContracting := [2]
  rhsContracting := [2]
  lhsNonContracting := [1]
  rhsNonContracting := [1]
  lhsBatch := [0]
  rhsBatch := [0]
  wf := dot_S2048x150x150_S2048x150x150_S2048x150x150_2_2_1_1_0_0_wf
def dot_S2048x1x150_S2048x150x150_S2048x1x150_2_2_1_1_0_0 : DotDims S2048x1x150 S2048x150x150 S2048x1x150 where
  lhsContracting := [2]
  rhsContracting := [2]
  lhsNonContracting := [1]
  rhsNonContracting := [1]
  lhsBatch := [0]
  rhsBatch := [0]
  wf := dot_S2048x1x150_S2048x150x150_S2048x1x150_2_2_1_1_0_0_wf
def dot_S2048x150x1_S2048x150x150_S2048x1x150_1_1_2_2_0_0 : DotDims S2048x150x1 S2048x150x150 S2048x1x150 where
  lhsContracting := [1]
  rhsContracting := [1]
  lhsNonContracting := [2]
  rhsNonContracting := [2]
  lhsBatch := [0]
  rhsBatch := [0]
  wf := dot_S2048x150x1_S2048x150x150_S2048x1x150_1_1_2_2_0_0_wf
def dot_S2048x1x150_S2048x150x150_S2048x1x150_2_1_1_2_0_0 : DotDims S2048x1x150 S2048x150x150 S2048x1x150 where
  lhsContracting := [2]
  rhsContracting := [1]
  lhsNonContracting := [1]
  rhsNonContracting := [2]
  lhsBatch := [0]
  rhsBatch := [0]
  wf := dot_S2048x1x150_S2048x150x150_S2048x1x150_2_1_1_2_0_0_wf

class Facts : Prop extends Facts₀ where

variable [Facts]
-- ==== Proof.KMatmul.lean ====
/-
  The kernel's four batched matrix products read at an index.

  Each is a tpu.matmul into the zero matrix with batch axis 0 on both operands and one contracted axis of length
  150 on each. At the extended reals such a product, at an output index, is the sum over the contraction
  coordinate of the products of the operands' entries; the lemmas below name the operand entries by coordinates for
  the four axis arrangements the kernel uses: for each operand, axis 0 reads the output's batch coordinate, the
  kept axis reads the output's middle (left operand) or last (right operand) coordinate, and the contracted axis
  reads the summation coordinate.
-/
import proofs.«112214_j65575560675598_1_alg».proof.Proof.Gen.KernelIdeal
import Idealize.ShloMosaic.Lib.ValueIdx
import Idealize.ShloMosaic.PureOps.Ideal.Laws

noncomputable section

namespace Cert.KernelIdeal.Mat

open Cert.KernelIdeal Cert.KernelIdeal.Gen Idealize.ShloMosaic Idealize.ShloMosaic.ValueIdx

private theorem scores_lhs_batch (i : S16x150x150.Idx) (q : dot_S16x150x150_S16x150x150_S16x150x150_2_2_1_1_0_0.contr.Idx) :
    (dot_S16x150x150_S16x150x150_S16x150x150_2_2_1_1_0_0.lhsIdx i q 0).val = (i 0).val := by
  unfold DotDims.lhsIdx
  rw [dif_pos (show (0 : Fin S16x150x150.rank) ∈ dot_S16x150x150_S16x150x150_S16x150x150_2_2_1_1_0_0.lhsBatch by decide)]
  rfl
private theorem scores_lhs_kept (i : S16x150x150.Idx) (q : dot_S16x150x150_S16x150x150_S16x150x150_2_2_1_1_0_0.contr.Idx) :
    (dot_S16x150x150_S16x150x150_S16x150x150_2_2_1_1_0_0.lhsIdx i q 1).val = (i 1).val := by
  unfold DotDims.lhsIdx
  rw [dif_neg (show ¬(1 : Fin S16x150x150.rank) ∈ dot_S16x150x150_S16x150x150_S16x150x150_2_2_1_1_0_0.lhsBatch by decide), dif_pos (show (1 : Fin S16x150x150.rank) ∈ dot_S16x150x150_S16x150x150_S16x150x150_2_2_1_1_0_0.lhsNonContracting by decide)]
  rfl
private theorem scores_lhs_contr (i : S16x150x150.Idx) (q : dot_S16x150x150_S16x150x150_S16x150x150_2_2_1_1_0_0.contr.Idx) :
    (dot_S16x150x150_S16x150x150_S16x150x150_2_2_1_1_0_0.lhsIdx i q 2).val = (q ⟨0, by decide⟩).val :=
  dot_S16x150x150_S16x150x150_S16x150x150_2_2_1_1_0_0.lhsIdx_val_of_single rfl i q
private theorem scores_rhs_batch (i : S16x150x150.Idx) (q : dot_S16x150x150_S16x150x150_S16x150x150_2_2_1_1_0_0.contr.Idx) :
    (dot_S16x150x150_S16x150x150_S16x150x150_2_2_1_1_0_0.rhsIdx i q 0).val = (i 0).val := by
  unfold DotDims.rhsIdx
  rw [dif_pos (show (0 : Fin S16x150x150.rank) ∈ dot_S16x150x150_S16x150x150_S16x150x150_2_2_1_1_0_0.rhsBatch by decide)]
  rfl
private theorem scores_rhs_kept (i : S16x150x150.Idx) (q : dot_S16x150x150_S16x150x150_S16x150x150_2_2_1_1_0_0.contr.Idx) :
    (dot_S16x150x150_S16x150x150_S16x150x150_2_2_1_1_0_0.rhsIdx i q 1).val = (i 2).val := by
  unfold DotDims.rhsIdx
  rw [dif_neg (show ¬(1 : Fin S16x150x150.rank) ∈ dot_S16x150x150_S16x150x150_S16x150x150_2_2_1_1_0_0.rhsBatch by decide), dif_pos (show (1 : Fin S16x150x150.rank) ∈ dot_S16x150x150_S16x150x150_S16x150x150_2_2_1_1_0_0.rhsNonContracting by decide)]
  rfl
private theorem scores_rhs_contr (i : S16x150x150.Idx) (q : dot_S16x150x150_S16x150x150_S16x150x150_2_2_1_1_0_0.contr.Idx) :
    (dot_S16x150x150_S16x150x150_S16x150x150_2_2_1_1_0_0.rhsIdx i q 2).val = (q ⟨0, by decide⟩).val :=
  dot_S16x150x150_S16x150x150_S16x150x150_2_2_1_1_0_0.rhsIdx_val_of_single rfl i q

/-- The score product: both operands contracted along their last axis, out (b, i, j) = ∑ d l (b, i, d) · r (b, j, d). -/
theorem scores_apply {φ₁ φ₂ : FTy} (l : FVec Ideal S16x150x150 φ₁) (r : FVec Ideal S16x150x150 φ₂) (b : Fin 16) (i j : Fin 150) :
    matmul dot_S16x150x150_S16x150x150_S16x150x150_2_2_1_1_0_0 none l r (constant (F := Ideal) S16x150x150 .f32 0x00000000#32) (ix3 b i j)
      = ∑ j' : Fin 150, l (ix3 b i j') * r (ix3 b j j') := by
  simp only [matmul]
  rw [Ideal.matmul_constant_zero_apply, ← Equiv.sum_comp (contrEquiv1 dot_S16x150x150_S16x150x150_S16x150x150_2_2_1_1_0_0 150 rfl rfl).symm]
  refine Finset.sum_congr rfl fun j' _ => ?_
  have hk := contrEquiv1_symm_val dot_S16x150x150_S16x150x150_S16x150x150_2_2_1_1_0_0 150 rfl rfl j'
  have el : dot_S16x150x150_S16x150x150_S16x150x150_2_2_1_1_0_0.lhsIdx (ix3 b i j) ((contrEquiv1 dot_S16x150x150_S16x150x150_S16x150x150_2_2_1_1_0_0 150 rfl rfl).symm j') = ix3 b i j' := funext fun a => Fin.ext (by
    match a with
    | ⟨0, _⟩ => exact scores_lhs_batch _ _
    | ⟨1, _⟩ => exact scores_lhs_kept _ _
    | ⟨2, _⟩ => exact (scores_lhs_contr _ _).trans hk)
  have er : dot_S16x150x150_S16x150x150_S16x150x150_2_2_1_1_0_0.rhsIdx (ix3 b i j) ((contrEquiv1 dot_S16x150x150_S16x150x150_S16x150x150_2_2_1_1_0_0 150 rfl rfl).symm j') = ix3 b j j' := funext fun a => Fin.ext (by
    match a with
    | ⟨0, _⟩ => exact scores_rhs_batch _ _
    | ⟨1, _⟩ => exact scores_rhs_kept _ _
    | ⟨2, _⟩ => exact (scores_rhs_contr _ _).trans hk)
  rw [el, er]

private theorem rowAgainstRows_lhs_batch (i : S16x1x150.Idx) (q : dot_S16x1x150_S16x150x150_S16x1x150_2_2_1_1_0_0.contr.Idx) :
    (dot_S16x1x150_S16x150x150_S16x1x150_2_2_1_1_0_0.lhsIdx i q 0).val = (i 0).val := by
  unfold DotDims.lhsIdx
  rw [dif_pos (show (0 : Fin S16x1x150.rank) ∈ dot_S16x1x150_S16x150x150_S16x1x150_2_2_1_1_0_0.lhsBatch by decide)]
  rfl
private theorem rowAgainstRows_lhs_kept (i : S16x1x150.Idx) (q : dot_S16x1x150_S16x150x150_S16x1x150_2_2_1_1_0_0.contr.Idx) :
    (dot_S16x1x150_S16x150x150_S16x1x150_2_2_1_1_0_0.lhsIdx i q 1).val = (i 1).val := by
  unfold DotDims.lhsIdx
  rw [dif_neg (show ¬(1 : Fin S16x1x150.rank) ∈ dot_S16x1x150_S16x150x150_S16x1x150_2_2_1_1_0_0.lhsBatch by decide), dif_pos (show (1 : Fin S16x1x150.rank) ∈ dot_S16x1x150_S16x150x150_S16x1x150_2_2_1_1_0_0.lhsNonContracting by decide)]
  rfl
private theorem rowAgainstRows_lhs_contr (i : S16x1x150.Idx) (q : dot_S16x1x150_S16x150x150_S16x1x150_2_2_1_1_0_0.contr.Idx) :
    (dot_S16x1x150_S16x150x150_S16x1x150_2_2_1_1_0_0.lhsIdx i q 2).val = (q ⟨0, by decide⟩).val :=
  dot_S16x1x150_S16x150x150_S16x1x150_2_2_1_1_0_0.lhsIdx_val_of_single rfl i q
private theorem rowAgainstRows_rhs_batch (i : S16x1x150.Idx) (q : dot_S16x1x150_S16x150x150_S16x1x150_2_2_1_1_0_0.contr.Idx) :
    (dot_S16x1x150_S16x150x150_S16x1x150_2_2_1_1_0_0.rhsIdx i q 0).val = (i 0).val := by
  unfold DotDims.rhsIdx
  rw [dif_pos (show (0 : Fin S16x150x150.rank) ∈ dot_S16x1x150_S16x150x150_S16x1x150_2_2_1_1_0_0.rhsBatch by decide)]
  rfl
private theorem rowAgainstRows_rhs_kept (i : S16x1x150.Idx) (q : dot_S16x1x150_S16x150x150_S16x1x150_2_2_1_1_0_0.contr.Idx) :
    (dot_S16x1x150_S16x150x150_S16x1x150_2_2_1_1_0_0.rhsIdx i q 1).val = (i 2).val := by
  unfold DotDims.rhsIdx
  rw [dif_neg (show ¬(1 : Fin S16x150x150.rank) ∈ dot_S16x1x150_S16x150x150_S16x1x150_2_2_1_1_0_0.rhsBatch by decide), dif_pos (show (1 : Fin S16x150x150.rank) ∈ dot_S16x1x150_S16x150x150_S16x1x150_2_2_1_1_0_0.rhsNonContracting by decide)]
  rfl
private theorem rowAgainstRows_rhs_contr (i : S16x1x150.Idx) (q : dot_S16x1x150_S16x150x150_S16x1x150_2_2_1_1_0_0.contr.Idx) :
    (dot_S16x1x150_S16x150x150_S16x1x150_2_2_1_1_0_0.rhsIdx i q 2).val = (q ⟨0, by decide⟩).val :=
  dot_S16x1x150_S16x150x150_S16x1x150_2_2_1_1_0_0.rhsIdx_val_of_single rfl i q

/-- A row vector against the rows of a matrix: out (b, u, k) = ∑ j l (b, u, j) · r (b, k, j). -/
theorem rowAgainstRows_apply {φ₁ φ₂ : FTy} (l : FVec Ideal S16x1x150 φ₁) (r : FVec Ideal S16x150x150 φ₂) (b : Fin 16) (u : Fin 1) (k : Fin 150) :
    matmul dot_S16x1x150_S16x150x150_S16x1x150_2_2_1_1_0_0 none l r (constant (F := Ideal) S16x1x150 .f32 0x00000000#32) (ix3 b u k)
      = ∑ j' : Fin 150, l (ix3 b u j') * r (ix3 b k j') := by
  simp only [matmul]
  rw [Ideal.matmul_constant_zero_apply, ← Equiv.sum_comp (contrEquiv1 dot_S16x1x150_S16x150x150_S16x1x150_2_2_1_1_0_0 150 rfl rfl).symm]
  refine Finset.sum_congr rfl fun j' _ => ?_
  have hk := contrEquiv1_symm_val dot_S16x1x150_S16x150x150_S16x1x150_2_2_1_1_0_0 150 rfl rfl j'
  have el : dot_S16x1x150_S16x150x150_S16x1x150_2_2_1_1_0_0.lhsIdx (ix3 b u k) ((contrEquiv1 dot_S16x1x150_S16x150x150_S16x1x150_2_2_1_1_0_0 150 rfl rfl).symm j') = ix3 b u j' := funext fun a => Fin.ext (by
    match a with
    | ⟨0, _⟩ => exact rowAgainstRows_lhs_batch _ _
    | ⟨1, _⟩ => exact rowAgainstRows_lhs_kept _ _
    | ⟨2, _⟩ => exact (rowAgainstRows_lhs_contr _ _).trans hk)
  have er : dot_S16x1x150_S16x150x150_S16x1x150_2_2_1_1_0_0.rhsIdx (ix3 b u k) ((contrEquiv1 dot_S16x1x150_S16x150x150_S16x1x150_2_2_1_1_0_0 150 rfl rfl).symm j') = ix3 b k j' := funext fun a => Fin.ext (by
    match a with
    | ⟨0, _⟩ => exact rowAgainstRows_rhs_batch _ _
    | ⟨1, _⟩ => exact rowAgainstRows_rhs_kept _ _
    | ⟨2, _⟩ => exact (rowAgainstRows_rhs_contr _ _).trans hk)
  rw [el, er]

private theorem colAgainstCols_lhs_batch (i : S16x1x150.Idx) (q : dot_S16x150x1_S16x150x150_S16x1x150_1_1_2_2_0_0.contr.Idx) :
    (dot_S16x150x1_S16x150x150_S16x1x150_1_1_2_2_0_0.lhsIdx i q 0).val = (i 0).val := by
  unfold DotDims.lhsIdx
  rw [dif_pos (show (0 : Fin S16x150x1.rank) ∈ dot_S16x150x1_S16x150x150_S16x1x150_1_1_2_2_0_0.lhsBatch by decide)]
  rfl
private theorem colAgainstCols_lhs_kept (i : S16x1x150.Idx) (q : dot_S16x150x1_S16x150x150_S16x1x150_1_1_2_2_0_0.contr.Idx) :
    (dot_S16x150x1_S16x150x150_S16x1x150_1_1_2_2_0_0.lhsIdx i q 2).val = (i 1).val := by
  unfold DotDims.lhsIdx
  rw [dif_neg (show ¬(2 : Fin S16x150x1.rank) ∈ dot_S16x150x1_S16x150x150_S16x1x150_1_1_2_2_0_0.lhsBatch by decide), dif_pos (show (2 : Fin S16x150x1.rank) ∈ dot_S16x150x1_S16x150x150_S16x1x150_1_1_2_2_0_0.lhsNonContracting by decide)]
  rfl
private theorem colAgainstCols_lhs_contr (i : S16x1x150.Idx) (q : dot_S16x150x1_S16x150x150_S16x1x150_1_1_2_2_0_0.contr.Idx) :
    (dot_S16x150x1_S16x150x150_S16x1x150_1_1_2_2_0_0.lhsIdx i q 1).val = (q ⟨0, by decide⟩).val :=
  dot_S16x150x1_S16x150x150_S16x1x150_1_1_2_2_0_0.lhsIdx_val_of_single rfl i q
private theorem colAgainstCols_rhs_batch (i : S16x1x150.Idx) (q : dot_S16x150x1_S16x150x150_S16x1x150_1_1_2_2_0_0.contr.Idx) :
    (dot_S16x150x1_S16x150x150_S16x1x150_1_1_2_2_0_0.rhsIdx i q 0).val = (i 0).val := by
  unfold DotDims.rhsIdx
  rw [dif_pos (show (0 : Fin S16x150x150.rank) ∈ dot_S16x150x1_S16x150x150_S16x1x150_1_1_2_2_0_0.rhsBatch by decide)]
  rfl
private theorem colAgainstCols_rhs_kept (i : S16x1x150.Idx) (q : dot_S16x150x1_S16x150x150_S16x1x150_1_1_2_2_0_0.contr.Idx) :
    (dot_S16x150x1_S16x150x150_S16x1x150_1_1_2_2_0_0.rhsIdx i q 2).val = (i 2).val := by
  unfold DotDims.rhsIdx
  rw [dif_neg (show ¬(2 : Fin S16x150x150.rank) ∈ dot_S16x150x1_S16x150x150_S16x1x150_1_1_2_2_0_0.rhsBatch by decide), dif_pos (show (2 : Fin S16x150x150.rank) ∈ dot_S16x150x1_S16x150x150_S16x1x150_1_1_2_2_0_0.rhsNonContracting by decide)]
  rfl
private theorem colAgainstCols_rhs_contr (i : S16x1x150.Idx) (q : dot_S16x150x1_S16x150x150_S16x1x150_1_1_2_2_0_0.contr.Idx) :
    (dot_S16x150x1_S16x150x150_S16x1x150_1_1_2_2_0_0.rhsIdx i q 1).val = (q ⟨0, by decide⟩).val :=
  dot_S16x150x1_S16x150x150_S16x1x150_1_1_2_2_0_0.rhsIdx_val_of_single rfl i q

/-- A column vector against the columns of a matrix: out (b, u, k) = ∑ j l (b, j, u) · r (b, j, k). -/
theorem colAgainstCols_apply {φ₁ φ₂ : FTy} (l : FVec Ideal S16x150x1 φ₁) (r : FVec Ideal S16x150x150 φ₂) (b : Fin 16) (u : Fin 1) (k : Fin 150) :
    matmul dot_S16x150x1_S16x150x150_S16x1x150_1_1_2_2_0_0 none l r (constant (F := Ideal) S16x1x150 .f32 0x00000000#32) (ix3 b u k)
      = ∑ j' : Fin 150, l (ix3 b j' u) * r (ix3 b j' k) := by
  simp only [matmul]
  rw [Ideal.matmul_constant_zero_apply, ← Equiv.sum_comp (contrEquiv1 dot_S16x150x1_S16x150x150_S16x1x150_1_1_2_2_0_0 150 rfl rfl).symm]
  refine Finset.sum_congr rfl fun j' _ => ?_
  have hk := contrEquiv1_symm_val dot_S16x150x1_S16x150x150_S16x1x150_1_1_2_2_0_0 150 rfl rfl j'
  have el : dot_S16x150x1_S16x150x150_S16x1x150_1_1_2_2_0_0.lhsIdx (ix3 b u k) ((contrEquiv1 dot_S16x150x1_S16x150x150_S16x1x150_1_1_2_2_0_0 150 rfl rfl).symm j') = ix3 b j' u := funext fun a => Fin.ext (by
    match a with
    | ⟨0, _⟩ => exact colAgainstCols_lhs_batch _ _
    | ⟨1, _⟩ => exact (colAgainstCols_lhs_contr _ _).trans hk
    | ⟨2, _⟩ => exact colAgainstCols_lhs_kept _ _)
  have er : dot_S16x150x1_S16x150x150_S16x1x150_1_1_2_2_0_0.rhsIdx (ix3 b u k) ((contrEquiv1 dot_S16x150x1_S16x150x150_S16x1x150_1_1_2_2_0_0 150 rfl rfl).symm j') = ix3 b j' k := funext fun a => Fin.ext (by
    match a with
    | ⟨0, _⟩ => exact colAgainstCols_rhs_batch _ _
    | ⟨1, _⟩ => exact (colAgainstCols_rhs_contr _ _).trans hk
    | ⟨2, _⟩ => exact colAgainstCols_rhs_kept _ _)
  rw [el, er]

private theorem rowTimesMatrix_lhs_batch (i : S16x1x150.Idx) (q : dot_S16x1x150_S16x150x150_S16x1x150_2_1_1_2_0_0.contr.Idx) :
    (dot_S16x1x150_S16x150x150_S16x1x150_2_1_1_2_0_0.lhsIdx i q 0).val = (i 0).val := by
  unfold DotDims.lhsIdx
  rw [dif_pos (show (0 : Fin S16x1x150.rank) ∈ dot_S16x1x150_S16x150x150_S16x1x150_2_1_1_2_0_0.lhsBatch by decide)]
  rfl
private theorem rowTimesMatrix_lhs_kept (i : S16x1x150.Idx) (q : dot_S16x1x150_S16x150x150_S16x1x150_2_1_1_2_0_0.contr.Idx) :
    (dot_S16x1x150_S16x150x150_S16x1x150_2_1_1_2_0_0.lhsIdx i q 1).val = (i 1).val := by
  unfold DotDims.lhsIdx
  rw [dif_neg (show ¬(1 : Fin S16x1x150.rank) ∈ dot_S16x1x150_S16x150x150_S16x1x150_2_1_1_2_0_0.lhsBatch by decide), dif_pos (show (1 : Fin S16x1x150.rank) ∈ dot_S16x1x150_S16x150x150_S16x1x150_2_1_1_2_0_0.lhsNonContracting by decide)]
  rfl
private theorem rowTimesMatrix_lhs_contr (i : S16x1x150.Idx) (q : dot_S16x1x150_S16x150x150_S16x1x150_2_1_1_2_0_0.contr.Idx) :
    (dot_S16x1x150_S16x150x150_S16x1x150_2_1_1_2_0_0.lhsIdx i q 2).val = (q ⟨0, by decide⟩).val :=
  dot_S16x1x150_S16x150x150_S16x1x150_2_1_1_2_0_0.lhsIdx_val_of_single rfl i q
private theorem rowTimesMatrix_rhs_batch (i : S16x1x150.Idx) (q : dot_S16x1x150_S16x150x150_S16x1x150_2_1_1_2_0_0.contr.Idx) :
    (dot_S16x1x150_S16x150x150_S16x1x150_2_1_1_2_0_0.rhsIdx i q 0).val = (i 0).val := by
  unfold DotDims.rhsIdx
  rw [dif_pos (show (0 : Fin S16x150x150.rank) ∈ dot_S16x1x150_S16x150x150_S16x1x150_2_1_1_2_0_0.rhsBatch by decide)]
  rfl
private theorem rowTimesMatrix_rhs_kept (i : S16x1x150.Idx) (q : dot_S16x1x150_S16x150x150_S16x1x150_2_1_1_2_0_0.contr.Idx) :
    (dot_S16x1x150_S16x150x150_S16x1x150_2_1_1_2_0_0.rhsIdx i q 2).val = (i 2).val := by
  unfold DotDims.rhsIdx
  rw [dif_neg (show ¬(2 : Fin S16x150x150.rank) ∈ dot_S16x1x150_S16x150x150_S16x1x150_2_1_1_2_0_0.rhsBatch by decide), dif_pos (show (2 : Fin S16x150x150.rank) ∈ dot_S16x1x150_S16x150x150_S16x1x150_2_1_1_2_0_0.rhsNonContracting by decide)]
  rfl
private theorem rowTimesMatrix_rhs_contr (i : S16x1x150.Idx) (q : dot_S16x1x150_S16x150x150_S16x1x150_2_1_1_2_0_0.contr.Idx) :
    (dot_S16x1x150_S16x150x150_S16x1x150_2_1_1_2_0_0.rhsIdx i q 1).val = (q ⟨0, by decide⟩).val :=
  dot_S16x1x150_S16x150x150_S16x1x150_2_1_1_2_0_0.rhsIdx_val_of_single rfl i q

/-- A row vector times a matrix: out (b, u, d) = ∑ j l (b, u, j) · r (b, j, d). -/
theorem rowTimesMatrix_apply {φ₁ φ₂ : FTy} (l : FVec Ideal S16x1x150 φ₁) (r : FVec Ideal S16x150x150 φ₂) (b : Fin 16) (u : Fin 1) (d : Fin 150) :
    matmul dot_S16x1x150_S16x150x150_S16x1x150_2_1_1_2_0_0 none l r (constant (F := Ideal) S16x1x150 .f32 0x00000000#32) (ix3 b u d)
      = ∑ j' : Fin 150, l (ix3 b u j') * r (ix3 b j' d) := by
  simp only [matmul]
  rw [Ideal.matmul_constant_zero_apply, ← Equiv.sum_comp (contrEquiv1 dot_S16x1x150_S16x150x150_S16x1x150_2_1_1_2_0_0 150 rfl rfl).symm]
  refine Finset.sum_congr rfl fun j' _ => ?_
  have hk := contrEquiv1_symm_val dot_S16x1x150_S16x150x150_S16x1x150_2_1_1_2_0_0 150 rfl rfl j'
  have el : dot_S16x1x150_S16x150x150_S16x1x150_2_1_1_2_0_0.lhsIdx (ix3 b u d) ((contrEquiv1 dot_S16x1x150_S16x150x150_S16x1x150_2_1_1_2_0_0 150 rfl rfl).symm j') = ix3 b u j' := funext fun a => Fin.ext (by
    match a with
    | ⟨0, _⟩ => exact rowTimesMatrix_lhs_batch _ _
    | ⟨1, _⟩ => exact rowTimesMatrix_lhs_kept _ _
    | ⟨2, _⟩ => exact (rowTimesMatrix_lhs_contr _ _).trans hk)
  have er : dot_S16x1x150_S16x150x150_S16x1x150_2_1_1_2_0_0.rhsIdx (ix3 b u d) ((contrEquiv1 dot_S16x1x150_S16x150x150_S16x1x150_2_1_1_2_0_0 150 rfl rfl).symm j') = ix3 b j' d := funext fun a => Fin.ext (by
    match a with
    | ⟨0, _⟩ => exact rowTimesMatrix_rhs_batch _ _
    | ⟨1, _⟩ => exact (rowTimesMatrix_rhs_contr _ _).trans hk
    | ⟨2, _⟩ => exact rowTimesMatrix_rhs_kept _ _)
  rw [el, er]

end Cert.KernelIdeal.Mat

end
-- ==== Proof.LibAxisLayout.lean ====
/-
  Three-axis layout operations and single-axis reductions read at an index given by coordinates.

  A reduction of an [a, b, c] array along its middle or last axis leaves an [a, c] or [a, b] array; kept as a
  unit axis it is re-laid as [a, 1, c] or [a, b, 1] and broadcast back to [a, b, c]. Read at (i, j, k) each cast
  returns the operand's entry at the coordinates that remain — a unit coordinate is zero, so the row-major
  position is unchanged — and each broadcast reads the unit axis at 0 and the other axes at the result's own
  coordinates. A reduction over one axis, read at the kept coordinates, ranges over the dropped coordinate put
  back in its place.
-/
import Idealize.ShloMosaic.Lib.Pipeline.Value
import Idealize.ShloMosaic.Lib.ValueIdx
import Idealize.ShloMosaic.PureOps.Ideal.Laws

namespace Cert.Lib.AxisLayout

open Idealize.ShloMosaic Idealize.ShloMosaic.ValueIdx

variable {α : Type}

/-- Two indices of a one-axis shape with the same coordinate are equal. -/
theorem ext1 {n0 : ℕ} {f g : (⟨1, ![n0]⟩ : Shape).Idx} (h0 : (f 0).val = (g 0).val) : f = g :=
  funext fun a => Fin.ext (by match a with | ⟨0, _⟩ => exact h0)

/-- Two indices of a two-axis shape with the same coordinates are equal. -/
theorem ext2 {n0 n1 : ℕ} {f g : (⟨2, ![n0, n1]⟩ : Shape).Idx} (h0 : (f 0).val = (g 0).val) (h1 : (f 1).val = (g 1).val) : f = g :=
  funext fun a => Fin.ext (by match a with | ⟨0, _⟩ => exact h0 | ⟨1, _⟩ => exact h1)

/-- Two indices of a three-axis shape with the same coordinates are equal. -/
theorem ext3 {n0 n1 n2 : ℕ} {f g : (⟨3, ![n0, n1, n2]⟩ : Shape).Idx} (h0 : (f 0).val = (g 0).val) (h1 : (f 1).val = (g 1).val)
    (h2 : (f 2).val = (g 2).val) : f = g :=
  funext fun a => Fin.ext (by match a with | ⟨0, _⟩ => exact h0 | ⟨1, _⟩ => exact h1 | ⟨2, _⟩ => exact h2)

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, 1, c] array cast to [a, c] reads, at (i, k), the operand at (i, 0, k). -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1, c] array broadcast to [a, b, c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- Dropping the middle axis of [a, b, c]: the kept index (i, k) with coordinate j put back is (i, j, k). -/
theorem lift_abc_mid {a b c : ℕ} (h : (⟨3, ![a, b, c]⟩ : Shape).Reduces [1] (⟨2, ![a, c]⟩ : Shape)) (i : Fin a) (k : Fin c)
    (j : Fin ((⟨3, ![a, b, c]⟩ : Shape).size 1)) : h.lift (ix2 i k) j = ix3 i (⟨j.val, j.isLt⟩ : Fin b) k := by
  funext d; apply Fin.ext
  fin_cases d <;> rfl

/-- Dropping the last axis of [a, b, c]: the kept index (i, j) with coordinate k put back is (i, j, k). -/
theorem lift_abc_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- Dropping the last axis of [a, b]: the kept index i with coordinate k put back is (i, k). -/
theorem lift_ab_last {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext d; apply Fin.ext
  fin_cases d <;> rfl

variable {φ : FTy}

/-- A sum along the middle axis of [a, b, c], at (i, k), is the sum over j of the entries (i, j, k). -/
theorem sum_mid_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_abc_mid h i k j))

/-- A sum along the last axis of [a, b, c], at (i, j), is the sum over k of the entries (i, j, k). -/
theorem sum_last_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_abc_last h i j k))

/-- A sum along the last axis of [a, b], at i, is the sum over k of the entries (i, k). -/
theorem sum_row_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_ab_last h i k))

/-- A maximum along the middle axis of [a, b, c], at (i, k): the fold of max from the start value over the entries (i, j, k). -/
theorem max_mid_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) (fun j => src (ix3 i j k)) :=
  (Ideal.multiReduction_maximumf_single src acc h hφ hacc (ix2 i k)).trans
    (congrArg (fun f => (Finset.univ : Finset (Fin b)).fold max (Ideal.ofBits φ acc) f)
      (funext fun j => congrArg src (lift_abc_mid h i k j)))

/-- A maximum along the last axis of [a, b, c], at (i, j): the fold of max from the start value over the entries (i, j, k). -/
theorem max_last_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_abc_last h i j k)))

end Cert.Lib.AxisLayout
-- ==== Proof.LibKeepdims.lean ====
/-
  Column-shaped layout operations read at an index given by coordinates.

  A sum taken along the last axis with the axis kept (a "keepdims" row sum) leaves a COLUMN: the vector of
  sums `[a]` is re-laid as `[a, 1]` and then broadcast along the new unit axis to `[a, b]`. Read at `(p, c)`
  each of the two steps returns the operand's entry for row `p`, whatever the column `c`: the cast because
  the row-major position of `(p, 0)` in `[a, 1]` is `p · 1 + 0 = p`, the broadcast because a unit axis is read
  at `0` and every other axis at the result's own coordinate. (The transposed pair — a vector re-laid as one row
  `[1, b]` and that row broadcast over `a` rows — is already in the layout library.)
-/
import Idealize.ShloMosaic.Lib.Pipeline.Value
import Idealize.ShloMosaic.Lib.ValueIdx

namespace Cert.Lib.Keepdims

open Idealize.ShloMosaic Idealize.ShloMosaic.ValueIdx

variable {α : Type}

/-- An `[a]` vector cast to the column `[a, 1]` reads, at `(i, u)`, the operand at `i`: the unit coordinate `u`
    is `0`, and `(i, 0)` sits at row-major position `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry for row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibMiddleUnitAxis.lean ====
/-
  A unit axis inserted between two axes by a shape cast, read at an index.

  An `[a, b]` array cast to `[a, 1, b]` reads, at `(i, u, j)`, the operand at `(i, j)`: both indices have the
  same row-major position, `i · b + j`, since the middle coordinate of a unit axis is zero.
-/
import Idealize.ShloMosaic.Lib.ValueIdx
import Idealize.ShloMosaic.Lib.Pipeline.Value

noncomputable section

namespace Idealize.ShloMosaic.MiddleUnitAxis

open Idealize.ShloMosaic Idealize.ShloMosaic.ValueIdx

/-- An `[a, b]` array cast to `[a, 1, b]` reads, at `(i, u, j)`, the operand at `(i, j)`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.MiddleUnitAxis

end
-- ==== Proof.AttnSpec.lean ====
/-
  The mathematics of one batch item of the masked soft-alignment attention, over the extended reals.

  For one batch item the inputs are two 150 × 150 matrices X0, X1 and two mask rows m0, m1 (already converted to
  numbers). Rows of X0 and X1 are scaled by their masks; the score matrix is
  S i j = ∑ d (X0 i d · m0 i) · (X1 j d · m1 j). S is soft-maxed twice: down each column (colSoft: the exponential
  of a score less its column's maximum, over the column's sum of exponentials) and along each row (rowSoft).
  alpha = meanRows (colSoft S) is the mean of each row of the column softmax, beta = meanCols (rowSoft S) the mean of
  each column of the row softmax. gammaA B k = ∑ j (meanCols B j) · B k j and gammaB A k = ∑ j (meanRows A j) · A j k;
  the two vector results are outVec g X m d = (∑ j g j · X j d) / ∑ j m j with (g, X, m) = (gammaA (rowSoft S), X0, m0)
  and (gammaB (colSoft S), X1, m1). Every maximum starts from −∞ and is once more compared with −∞, as both
  programs do; −∞ and the length 150 are kept as their float words, which both programs spell identically.
-/
import Idealize.ShloMosaic.PureOps.Ideal
import Idealize.ShloMosaic.Lib.ValueIdx

noncomputable section

namespace Cert.Attn

open Idealize.ShloMosaic

/-- −∞, as the float word both programs start their maxima from. -/
abbrev negInf : EReal := Ideal.ofBits .f32 0xFF800000#32
/-- The row length 150, as the float word both programs divide their means by. -/
abbrev len : EReal := Ideal.ofBits .f32 0x43160000#32

/-- A 150 × 150 matrix of extended reals. -/
abbrev Mat150 : Type := Fin 150 → Fin 150 → EReal

/-- The masked score matrix. -/
def score (X0 X1 : Mat150) (m0 m1 : Fin 150 → EReal) : Mat150 :=
  fun i j => ∑ d : Fin 150, (X0 i d * m0 i) * (X1 j d * m1 j)

section softmax
variable (S : Mat150)

/-- The maximum of column j. -/
def colMax (j : Fin 150) : EReal := max negInf ((Finset.univ : Finset (Fin 150)).fold max negInf fun i => S i j)
/-- The maximum of row i. -/
def rowMax (i : Fin 150) : EReal := max negInf ((Finset.univ : Finset (Fin 150)).fold max negInf fun j => S i j)
/-- The exponential of an entry less its column's maximum. -/
def colExp : Mat150 := fun i j => Ideal.exp (S i j - colMax S j)
/-- The exponential of an entry less its row's maximum. -/
def rowExp : Mat150 := fun i j => Ideal.exp (S i j - rowMax S i)
/-- The sum of column j's exponentials. -/
def colSum (j : Fin 150) : EReal := ∑ i' : Fin 150, colExp S i' j
/-- The sum of row i's exponentials. -/
def rowSum (i : Fin 150) : EReal := ∑ j' : Fin 150, rowExp S i j'
/-- The softmax down each column. -/
def colSoft : Mat150 := fun i j => Ideal.div (colExp S i j) (colSum S j)
/-- The softmax along each row. -/
def rowSoft : Mat150 := fun i j => Ideal.div (rowExp S i j) (rowSum S i)

end softmax

/-- The mean of each row of a matrix. -/
def meanRows (A : Mat150) (i : Fin 150) : EReal := Ideal.div (∑ j : Fin 150, A i j) len
/-- The mean of each column of a matrix. -/
def meanCols (B : Mat150) (j : Fin 150) : EReal := Ideal.div (∑ i : Fin 150, B i j) len
/-- The column means of B against the rows of B. -/
def gammaA (B : Mat150) (k : Fin 150) : EReal := ∑ j : Fin 150, meanCols B j * B k j
/-- The row means of A against the columns of A. -/
def gammaB (A : Mat150) (k : Fin 150) : EReal := ∑ j : Fin 150, meanRows A j * A j k
/-- A weight vector against the rows of X, over the number of unmasked rows. -/
def outVec (g : Fin 150 → EReal) (X : Mat150) (m : Fin 150 → EReal) (d : Fin 150) : EReal :=
  Ideal.div (∑ j : Fin 150, g j * X j d) (∑ j : Fin 150, m j)

/-! ## One batch item of a batched array -/

open Idealize.ShloMosaic.ValueIdx

/-- Batch item b of an [n, 150, 150] array, as a matrix. -/
abbrev mat {n : ℕ} (P : (⟨3, ![n, 150, 150]⟩ : Shape).Idx → EReal) (b : Fin n) : Mat150 :=
  fun i d => P (ix3 b i d)

/-- Batch item b of an [n, 150] integer mask, converted to numbers. -/
abbrev msk {n : ℕ} (P : (⟨2, ![n, 150]⟩ : Shape).Idx → BitVec 32) (b : Fin n) : Fin 150 → EReal :=
  fun i => FloatOps.sitofp (F := Ideal) .f32 (P (ix2 b i))

/-- The four results of batch item b as functions of the item's inputs. -/
def resA (X0 X1 : Mat150) (m0 m1 : Fin 150 → EReal) (d : Fin 150) : EReal :=
  outVec (gammaA (rowSoft (score X0 X1 m0 m1))) X0 m0 d
def resB (X0 X1 : Mat150) (m0 m1 : Fin 150 → EReal) (d : Fin 150) : EReal :=
  outVec (gammaB (colSoft (score X0 X1 m0 m1))) X1 m1 d
def resAlpha (X0 X1 : Mat150) (m0 m1 : Fin 150 → EReal) (i : Fin 150) : EReal :=
  meanRows (colSoft (score X0 X1 m0 m1)) i
def resBeta (X0 X1 : Mat150) (m0 m1 : Fin 150 → EReal) (j : Fin 150) : EReal :=
  meanCols (rowSoft (score X0 X1 m0 m1)) j

end Cert.Attn

end
-- ==== Proof.KBody.lean ====
/-
  What the kernel body computes, entry by entry, for one batch item of a block.

  The body works on a block of 16 batch items at once. Every operation it applies is either entrywise, a
  reduction along one of the two matrix axes, a re-laying that only inserts or removes a unit axis, a broadcast along
  a unit axis, or a matrix product batched over the first axis — so entry (b, ·, ·) of each value depends only on
  batch item b of the inputs. This module reads each value of the body at an index (b, i, j) and identifies it with
  the per-item mathematics of AttnSpec at batch item b of the loaded blocks: the score matrix, the two softmaxes,
  their means, the two weight vectors and the four stored results.
-/
import proofs.«112214_j65575560675598_1_alg».proof.Proof.Gen.KernelIdeal.Skeleton
import proofs.«112214_j65575560675598_1_alg».proof.Proof.KMatmul
import proofs.«112214_j65575560675598_1_alg».proof.Proof.LibAxisLayout
import proofs.«112214_j65575560675598_1_alg».proof.Proof.LibKeepdims
import proofs.«112214_j65575560675598_1_alg».proof.Proof.LibMiddleUnitAxis
import proofs.«112214_j65575560675598_1_alg».proof.Proof.AttnSpec

noncomputable section

namespace Cert.KernelIdeal.Body

open Cert.KernelIdeal Cert.KernelIdeal.Gen Idealize.ShloMosaic Idealize.ShloMosaic.ValueIdx Cert.Attn Cert.Lib.AxisLayout

/-! ## Broadcasts of a per-column and a per-row vector over the matrix axes -/

/-- A [16, 150] vector laid along the columns ([16, 1, 150]) and broadcast over the rows reads, at (b, i, j), entry (b, j). -/
theorem overRows_apply (v : FVec Ideal S16x150 .f32) (b : Fin 16) (i j : Fin 150) :
    broadcastTo S16x150x150 (shapeCast S16x1x150 v shapeCasts_S16x150_S16x1x150) broadcasts_S16x1x150_S16x150x150 (ix3 b i j)
      = v (ix2 b j) :=
  (broadcastTo_a1c_abc_apply _ _ b i j).trans (Idealize.ShloMosaic.MiddleUnitAxis.shapeCast_ab_a1b_apply _ _ b 0 j)

/-- A [16, 150] vector laid along the rows ([16, 150, 1]) and broadcast over the columns reads, at (b, i, j), entry (b, i). -/
theorem overCols_apply (v : FVec Ideal S16x150 .f32) (b : Fin 16) (i j : Fin 150) :
    broadcastTo S16x150x150 (shapeCast S16x150x1 v shapeCasts_S16x150_S16x150x1) broadcasts_S16x150x1_S16x150x150 (ix3 b i j)
      = v (ix2 b i) :=
  (broadcastTo_ab1_abc_apply _ _ b i j).trans (shapeCast_ab_ab1_apply _ _ b i 0)

/-! ## The two softmaxes as vector operations of the score block -/

/-- The column maxima of a block of matrices. -/
def colMaxV (S : FVec Ideal S16x150x150 .f32) : FVec Ideal S16x150 .f32 :=
  maximumf (broadcast S16x150 (Scalar.ofBits .f32 0xFF800000#32))
    (multiReduction .maximumf [1] S16x150 S 0xFF800000#32 reduces_S16x150x150_S16x150 (.inl rfl) rfl)

/-- The exponentials less the column maxima. -/
def colExpV (S : FVec Ideal S16x150x150 .f32) : FVec Ideal S16x150x150 .f32 :=
  exp (subf S (broadcastTo S16x150x150 (shapeCast S16x1x150 (colMaxV S) shapeCasts_S16x150_S16x1x150) broadcasts_S16x1x150_S16x150x150))

/-- The column softmax. -/
def colSoftV (S : FVec Ideal S16x150x150 .f32) : FVec Ideal S16x150x150 .f32 :=
  divf (colExpV S) (broadcastTo S16x150x150 (shapeCast S16x1x150
    (multiReduction .add [1] S16x150 (colExpV S) 0x00000000#32 reduces_S16x150x150_S16x150 (.inl rfl) rfl)
    shapeCasts_S16x150_S16x1x150) broadcasts_S16x1x150_S16x150x150)

/-- The row maxima of a block of matrices. -/
def rowMaxV (S : FVec Ideal S16x150x150 .f32) : FVec Ideal S16x150 .f32 :=
  maximumf (broadcast S16x150 (Scalar.ofBits .f32 0xFF800000#32))
    (multiReduction .maximumf [2] S16x150 S 0xFF800000#32 reduces_S16x150x150_S16x150_2 (.inl rfl) rfl)

/-- The exponentials less the row maxima. -/
def rowExpV (S : FVec Ideal S16x150x150 .f32) : FVec Ideal S16x150x150 .f32 :=
  exp (subf S (broadcastTo S16x150x150 (shapeCast S16x150x1 (rowMaxV S) shapeCasts_S16x150_S16x150x1) broadcasts_S16x150x1_S16x150x150))

/-- The row sums of a block, broadcast back over the columns. -/
def rowSumV (E : FVec Ideal S16x150x150 .f32) : FVec Ideal S16x150x150 .f32 :=
  broadcastTo S16x150x150 (shapeCast S16x150x1
    (multiReduction .add [2] S16x150 E 0x00000000#32 reduces_S16x150x150_S16x150_2 (.inl rfl) rfl)
    shapeCasts_S16x150_S16x150x1) broadcasts_S16x150x1_S16x150x150

variable (P0 P1 : Vec Ideal S16x150x150 .f32) (P2 P3 : Vec Ideal S16x150 .i32)

/-- The body's column softmax is colSoftV of its score block. -/
theorem pay11_eq : k0_pay11 (F := Ideal) P0 P1 P2 P3 = colSoftV (k0_pay10 P0 P1 P2 P3) := rfl
/-- The body's row exponentials are rowExpV of its score block. -/
theorem pay12_eq : k0_pay12 (F := Ideal) P0 P1 P2 P3 = rowExpV (k0_pay10 P0 P1 P2 P3) := rfl
/-- The body's broadcast row sums are rowSumV of its row exponentials. -/
theorem pay13_eq : k0_pay13 (F := Ideal) P0 P1 P2 P3 = rowSumV (k0_pay12 P0 P1 P2 P3) := rfl

theorem colMaxV_apply (S : FVec Ideal S16x150x150 .f32) (b : Fin 16) (j : Fin 150) :
    colMaxV S (ix2 b j) = colMax (mat S b) j :=
  congrArg (max negInf ·) (max_mid_apply S _ _ _ _ b j)

theorem rowMaxV_apply (S : FVec Ideal S16x150x150 .f32) (b : Fin 16) (i : Fin 150) :
    rowMaxV S (ix2 b i) = rowMax (mat S b) i :=
  congrArg (max negInf ·) (max_last_apply S _ _ _ _ b i)

theorem colExpV_apply (S : FVec Ideal S16x150x150 .f32) (b : Fin 16) (i j : Fin 150) :
    colExpV S (ix3 b i j) = colExp (mat S b) i j :=
  congrArg (fun z => Ideal.exp (S (ix3 b i j) - z)) ((overRows_apply (colMaxV S) b i j).trans (colMaxV_apply S b j))

theorem rowExpV_apply (S : FVec Ideal S16x150x150 .f32) (b : Fin 16) (i j : Fin 150) :
    rowExpV S (ix3 b i j) = rowExp (mat S b) i j :=
  congrArg (fun z => Ideal.exp (S (ix3 b i j) - z)) ((overCols_apply (rowMaxV S) b i j).trans (rowMaxV_apply S b i))

theorem colSoftV_apply (S : FVec Ideal S16x150x150 .f32) (b : Fin 16) (i j : Fin 150) :
    colSoftV S (ix3 b i j) = colSoft (mat S b) i j :=
  congrArg₂ Ideal.div (colExpV_apply S b i j)
    ((overRows_apply _ b i j).trans ((sum_mid_apply (colExpV S) _ _ _ _ b j).trans
      (Finset.sum_congr rfl fun i' _ => colExpV_apply S b i' j)))

theorem rowSumV_apply (E : FVec Ideal S16x150x150 .f32) (b : Fin 16) (i j : Fin 150) :
    rowSumV E (ix3 b i j) = ∑ j' : Fin 150, E (ix3 b i j') :=
  (overCols_apply _ b i j).trans (sum_last_apply E _ _ _ _ b i)

/-- The body's row softmax (the row exponentials over their broadcast row sums) at (b, i, j). -/
theorem rowSoftV_apply (S : FVec Ideal S16x150x150 .f32) (b : Fin 16) (i j : Fin 150) :
    k0_pay1 (F := Ideal) (rowExpV S) (rowSumV (rowExpV S)) (ix3 b i j) = rowSoft (mat S b) i j :=
  congrArg₂ Ideal.div (rowExpV_apply S b i j)
    ((rowSumV_apply (rowExpV S) b i j).trans (Finset.sum_congr rfl fun j' _ => rowExpV_apply S b i j'))

/-! ## The masks, their counts and the score block -/

/-- The number of unmasked rows of the first input, at batch item b. -/
theorem nums0_apply (b : Fin 16) (u : Fin 1) : k0_pay8 (F := Ideal) P2 (ix2 b u) = ∑ j : Fin 150, msk P2 b j := by
  unfold k0_pay8
  refine (Cert.Lib.Keepdims.shapeCast_a_a1_apply _ _ b u).trans ?_
  exact sum_row_apply _ _ _ _ _ b

/-- The number of unmasked rows of the second input, at batch item b. -/
theorem nums1_apply (b : Fin 16) (u : Fin 1) : k0_pay9 (F := Ideal) P3 (ix2 b u) = ∑ j : Fin 150, msk P3 b j := by
  unfold k0_pay9
  refine (Cert.Lib.Keepdims.shapeCast_a_a1_apply _ _ b u).trans ?_
  exact sum_row_apply _ _ _ _ _ b

/-- Rows scaled by a mask column, at (b, i, d). -/
theorem rowScale_apply (P : Vec Ideal S16x150x150 .f32) (v : FVec Ideal S16x150 .f32) (b : Fin 16) (i d : Fin 150) :
    mulf P (broadcastTo S16x150x150 (shapeCast S16x150x1 v shapeCasts_S16x150_S16x150x1) broadcasts_S16x150x1_S16x150x150) (ix3 b i d)
      = P (ix3 b i d) * v (ix2 b i) :=
  congrArg (P (ix3 b i d) * ·) (overCols_apply v b i d)

/-- The body's score block at (b, i, j) is the score matrix of batch item b of the blocks. -/
theorem score_apply (b : Fin 16) (i j : Fin 150) :
    k0_pay10 (F := Ideal) P0 P1 P2 P3 (ix3 b i j) = score (mat P0 b) (mat P1 b) (msk P2 b) (msk P3 b) i j := by
  unfold k0_pay10
  refine (Mat.scores_apply _ _ b i j).trans ?_
  exact Finset.sum_congr rfl fun d _ =>
    congrArg₂ (· * ·) (rowScale_apply P0 (k0_pay6 P2) b i d) (rowScale_apply P1 (k0_pay7 P3) b j d)

theorem score_mat (b : Fin 16) :
    mat (k0_pay10 (F := Ideal) P0 P1 P2 P3) b = score (mat P0 b) (mat P1 b) (msk P2 b) (msk P3 b) :=
  funext fun i => funext fun j => score_apply P0 P1 P2 P3 b i j

/-! ## The means, the weight vectors and the stored values -/

/-- The mean of each row of a block of matrices, kept as a column: at (b, i, ·). -/
theorem pay2_apply (A : FVec Ideal S16x150x150 .f32) (b : Fin 16) (i : Fin 150) (u : Fin 1) :
    k0_pay2 (F := Ideal) A (ix3 b i u) = meanRows (mat A b) i := by
  unfold k0_pay2
  exact congrArg (Ideal.div · len) ((shapeCast_ab_ab1_apply _ _ b i u).trans (sum_last_apply A _ _ _ _ b i))

/-- The mean of each column of the row softmax, kept as a row: at (b, ·, j). -/
theorem pay3_apply (E R : FVec Ideal S16x150x150 .f32) (b : Fin 16) (u : Fin 1) (j : Fin 150) :
    k0_pay3 (F := Ideal) E R (ix3 b u j) = meanCols (mat (k0_pay1 E R) b) j := by
  unfold k0_pay3
  exact congrArg (Ideal.div · len)
    ((Idealize.ShloMosaic.MiddleUnitAxis.shapeCast_ab_a1b_apply _ _ b u j).trans (sum_mid_apply (k0_pay1 E R) _ _ _ _ b j))

/-- The first stored vector at (b, d): the column means against the rows of the row softmax, then against the rows of
    X, over the count n. -/
theorem pay4_apply (X : Vec Ideal S16x150x150 .f32) (n : FVec Ideal S16x1 .f32) (E R : FVec Ideal S16x150x150 .f32)
    (b : Fin 16) (d : Fin 150) :
    k0_pay4 (F := Ideal) X n E R (ix2 b d)
      = Ideal.div (∑ j : Fin 150, gammaA (mat (k0_pay1 E R) b) j * X (ix3 b j d)) (n (ix2 b (0 : Fin 1))) := by
  unfold k0_pay4
  refine congrArg₂ Ideal.div ?_ (Cert.Lib.Keepdims.broadcastTo_a1_ab_apply _ _ b d)
  refine (shapeCast_a1c_ac_apply _ _ b d).trans ?_
  refine (Mat.rowTimesMatrix_apply _ _ b 0 d).trans ?_
  refine Finset.sum_congr rfl fun j _ => congrArg (· * X (ix3 b j d)) ?_
  refine (Mat.rowAgainstRows_apply _ _ b 0 j).trans ?_
  exact Finset.sum_congr rfl fun j2 _ => congrArg (· * k0_pay1 E R (ix3 b j j2)) (pay3_apply E R b 0 j2)

/-- The second stored vector at (b, d): the row means against the columns of A, then against the rows of X, over the
    count n. -/
theorem pay5_apply (X : Vec Ideal S16x150x150 .f32) (n : FVec Ideal S16x1 .f32) (A : FVec Ideal S16x150x150 .f32)
    (b : Fin 16) (d : Fin 150) :
    k0_pay5 (F := Ideal) X n A (ix2 b d)
      = Ideal.div (∑ j : Fin 150, gammaB (mat A b) j * X (ix3 b j d)) (n (ix2 b (0 : Fin 1))) := by
  unfold k0_pay5
  refine congrArg₂ Ideal.div ?_ (Cert.Lib.Keepdims.broadcastTo_a1_ab_apply _ _ b d)
  refine (shapeCast_a1c_ac_apply _ _ b d).trans ?_
  refine (Mat.rowTimesMatrix_apply _ _ b 0 d).trans ?_
  refine Finset.sum_congr rfl fun j _ => congrArg (· * X (ix3 b j d)) ?_
  refine (Mat.colAgainstCols_apply _ _ b 0 j).trans ?_
  exact Finset.sum_congr rfl fun j2 _ => congrArg (· * A (ix3 b j2 j)) (pay2_apply A b j2 0)

/-! ## The four stored blocks, per batch item -/

/-- The body's column softmax, batch item b, is the column softmax of the item's score matrix. -/
theorem colSoft_mat (b : Fin 16) :
    mat (k0_pay11 (F := Ideal) P0 P1 P2 P3) b = colSoft (score (mat P0 b) (mat P1 b) (msk P2 b) (msk P3 b)) := by
  rw [← score_mat P0 P1 P2 P3 b, pay11_eq]
  exact funext fun i => funext fun j => colSoftV_apply _ b i j

/-- The body's row softmax, batch item b, is the row softmax of the item's score matrix. -/
theorem rowSoft_mat (b : Fin 16) :
    mat (k0_pay1 (F := Ideal) (k0_pay12 P0 P1 P2 P3) (k0_pay13 P0 P1 P2 P3)) b
      = rowSoft (score (mat P0 b) (mat P1 b) (msk P2 b) (msk P3 b)) := by
  rw [← score_mat P0 P1 P2 P3 b, pay13_eq, pay12_eq]
  exact funext fun i => funext fun j => rowSoftV_apply _ b i j

/-- The first stored block at (b, d). -/
theorem storedA_apply (b : Fin 16) (d : Fin 150) :
    k0_pay4 (F := Ideal) P0 (k0_pay8 P2) (k0_pay12 P0 P1 P2 P3) (k0_pay13 P0 P1 P2 P3) (ix2 b d)
      = resA (mat P0 b) (mat P1 b) (msk P2 b) (msk P3 b) d := by
  rw [pay4_apply, nums0_apply, rowSoft_mat]
  rfl

/-- The second stored block at (b, d). -/
theorem storedB_apply (b : Fin 16) (d : Fin 150) :
    k0_pay5 (F := Ideal) P1 (k0_pay9 P3) (k0_pay11 P0 P1 P2 P3) (ix2 b d)
      = resB (mat P0 b) (mat P1 b) (msk P2 b) (msk P3 b) d := by
  rw [pay5_apply, nums1_apply, colSoft_mat]
  rfl

/-- The third stored block (alpha) at (b, i, ·). -/
theorem storedAlpha_apply (b : Fin 16) (i : Fin 150) (u : Fin 1) :
    k0_pay2 (F := Ideal) (k0_pay11 P0 P1 P2 P3) (ix3 b i u) = resAlpha (mat P0 b) (mat P1 b) (msk P2 b) (msk P3 b) i := by
  rw [pay2_apply, colSoft_mat]
  rfl

/-- The fourth stored block (beta) at (b, ·, j). -/
theorem storedBeta_apply (b : Fin 16) (u : Fin 1) (j : Fin 150) :
    k0_pay3 (F := Ideal) (k0_pay12 P0 P1 P2 P3) (k0_pay13 P0 P1 P2 P3) (ix3 b u j)
      = resBeta (mat P0 b) (mat P1 b) (msk P2 b) (msk P3 b) j := by
  rw [pay3_apply, rowSoft_mat]
  rfl

end Cert.KernelIdeal.Body

end
-- ==== Proof.AttnArrays.lean ====
/-
  The four result arrays as whole-array functions of the four argument arrays.

  Entry (b, ·) of every result depends only on batch item b of the arguments: the results are the per-item
  functions of AttnSpec applied to item b of each argument, read at the remaining coordinates (the unit axis of the
  alpha and beta arrays carries no information).
-/
import proofs.«112214_j65575560675598_1_alg».proof.Proof.AttnSpec

noncomputable section

namespace Cert.Attn

open Idealize.ShloMosaic Idealize.ShloMosaic.ValueIdx

variable (a0 a1 : (⟨3, ![2048, 150, 150]⟩ : Shape).Idx → EReal) (a2 a3 : (⟨2, ![2048, 150]⟩ : Shape).Idx → BitVec 32)

/-- The first vector result, [2048, 150]. -/
def arrA : (⟨2, ![2048, 150]⟩ : Shape).Idx → EReal :=
  fun y => resA (mat a0 (y 0)) (mat a1 (y 0)) (msk a2 (y 0)) (msk a3 (y 0)) (y 1)

/-- The second vector result, [2048, 150]. -/
def arrB : (⟨2, ![2048, 150]⟩ : Shape).Idx → EReal :=
  fun y => resB (mat a0 (y 0)) (mat a1 (y 0)) (msk a2 (y 0)) (msk a3 (y 0)) (y 1)

/-- alpha, [2048, 150, 1]. -/
def arrAlpha : (⟨3, ![2048, 150, 1]⟩ : Shape).Idx → EReal :=
  fun y => resAlpha (mat a0 (y 0)) (mat a1 (y 0)) (msk a2 (y 0)) (msk a3 (y 0)) (y 1)

/-- beta, [2048, 1, 150]. -/
def arrBeta : (⟨3, ![2048, 1, 150]⟩ : Shape).Idx → EReal :=
  fun y => resBeta (mat a0 (y 0)) (mat a1 (y 0)) (msk a2 (y 0)) (msk a3 (y 0)) (y 2)

theorem arrA_ix (b : Fin 2048) (d : Fin 150) :
    arrA a0 a1 a2 a3 (ix2 b d) = resA (mat a0 b) (mat a1 b) (msk a2 b) (msk a3 b) d := rfl
theorem arrB_ix (b : Fin 2048) (d : Fin 150) :
    arrB a0 a1 a2 a3 (ix2 b d) = resB (mat a0 b) (mat a1 b) (msk a2 b) (msk a3 b) d := rfl
theorem arrAlpha_ix (b : Fin 2048) (i : Fin 150) (u : Fin 1) :
    arrAlpha a0 a1 a2 a3 (ix3 b i u) = resAlpha (mat a0 b) (mat a1 b) (msk a2 b) (msk a3 b) i := rfl
theorem arrBeta_ix (b : Fin 2048) (u : Fin 1) (j : Fin 150) :
    arrBeta a0 a1 a2 a3 (ix3 b u j) = resBeta (mat a0 b) (mat a1 b) (msk a2 b) (msk a3 b) j := rfl

end Cert.Attn

end
-- ==== Proof.KValue.lean ====
/-
  From blocks to arrays: what the kernel's four result arrays hold after the run.

  The grid has 128 points; point t stages rows 16·t … 16·t + 15 of the batch axis of every operand (each window's
  block index is (t, 0, …), its block the full extent of the other axes). So entry (bb, ·) of an input block at point
  t is entry (16·t + bb, ·) of the array, and since each stored entry (bb, ·) depends only on batch item bb of the
  blocks, what point t writes back is block t of the whole-array functions of AttnArrays. Every batch row b lies in
  the block of point b / 16, so the blocks cover each result array, which therefore IS that function of the
  argument arrays.
-/
import proofs.«112214_j65575560675598_1_alg».proof.Proof.Gen.KernelIdeal.Value
import proofs.«112214_j65575560675598_1_alg».proof.Proof.KBody
import proofs.«112214_j65575560675598_1_alg».proof.Proof.AttnArrays

noncomputable section

namespace Cert.KernelIdeal.Whole

open Cert.KernelIdeal Cert.KernelIdeal.Gen Idealize.ShloMosaic Idealize.ShloMosaic.TcCoe Idealize.SL.Sem
open Idealize.ShloMosaic.ValueIdx Cert.Attn Cert.Lib.AxisLayout
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The index maps, decided over the 128 grid points: every window's block index is (t, 0, …) -/

theorem idx_in3 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

theorem idx_in2 : ∀ t : Fin cfg0.N,
    win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem idx_out : ∀ t : Fin cfg0.N,
    win0_4.index t (0 : Fin 2) = t.val ∧ win0_4.index t (1 : Fin 2) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- Every batch row's block is some point's. -/
theorem point_of_row : ∀ q : Fin 128, ∃ t : Fin cfg0.N, t.val = q.val :=
  (by decide +kernel : ∀ q : Fin 128, ∃ t : Fin grid0.N, t.val = q.val)

/-! ## The input blocks at a point, read at an index -/

/-- The four input blocks at point t, at their literal shapes. -/
abbrev blk0 (c : Dev nD) (t : Fin cfg0.N) : Vec Ideal S16x150x150 .f32 := iblk m c 0 t
abbrev blk1 (c : Dev nD) (t : Fin cfg0.N) : Vec Ideal S16x150x150 .f32 := iblk m c 1 t
abbrev blk2 (c : Dev nD) (t : Fin cfg0.N) : Vec Ideal S16x150 .i32 := iblk m c 2 t
abbrev blk3 (c : Dev nD) (t : Fin cfg0.N) : Vec Ideal S16x150 .i32 := iblk m c 3 t

theorem blk0_apply (c : Dev nD) (t : Fin cfg0.N) (bb : Fin 16) (i d : Fin 150) (B : Fin 2048) (hB : B.val = t.val * 16 + bb.val) :
    blk0 m c t (ix3 bb i d) = V m c main_arg0 (ix3 B i d) := by
  show V m c main_arg0 (((cfg0.win 0).blk t).view.emb (ix3 bb i d)) = V m c main_arg0 (ix3 B i d)
  obtain ⟨e0, e1, e2, -⟩ := idx_in3 t
  have h : ((cfg0.win 0).blk t).view.emb (ix3 bb i d) = ix3 B i d := ext3
    (by show win0_0.index t (0 : Fin 3) * 16 + 1 * bb.val = B.val; omega)
    (by show win0_0.index t (1 : Fin 3) * 150 + 1 * i.val = i.val; omega)
    (by show win0_0.index t (2 : Fin 3) * 150 + 1 * d.val = d.val; omega)
  rw [h]

theorem blk1_apply (c : Dev nD) (t : Fin cfg0.N) (bb : Fin 16) (i d : Fin 150) (B : Fin 2048) (hB : B.val = t.val * 16 + bb.val) :
    blk1 m c t (ix3 bb i d) = V m c main_arg1 (ix3 B i d) := by
  show V m c main_arg1 (((cfg0.win 1).blk t).view.emb (ix3 bb i d)) = V m c main_arg1 (ix3 B i d)
  obtain ⟨-, -, -, e0, e1, e2⟩ := idx_in3 t
  have h : ((cfg0.win 1).blk t).view.emb (ix3 bb i d) = ix3 B i d := ext3
    (by show win0_1.index t (0 : Fin 3) * 16 + 1 * bb.val = B.val; omega)
    (by show win0_1.index t (1 : Fin 3) * 150 + 1 * i.val = i.val; omega)
    (by show win0_1.index t (2 : Fin 3) * 150 + 1 * d.val = d.val; omega)
  rw [h]

theorem blk2_apply (c : Dev nD) (t : Fin cfg0.N) (bb : Fin 16) (i : Fin 150) (B : Fin 2048) (hB : B.val = t.val * 16 + bb.val) :
    blk2 m c t (ix2 bb i) = V m c main_arg2 (ix2 B i) := by
  show V m c main_arg2 (((cfg0.win 2).blk t).view.emb (ix2 bb i)) = V m c main_arg2 (ix2 B i)
  obtain ⟨e0, e1, -⟩ := idx_in2 t
  have h : ((cfg0.win 2).blk t).view.emb (ix2 bb i) = ix2 B i := ext2
    (by show win0_2.index t (0 : Fin 2) * 16 + 1 * bb.val = B.val; omega)
    (by show win0_2.index t (1 : Fin 2) * 150 + 1 * i.val = i.val; omega)
  rw [h]

theorem blk3_apply (c : Dev nD) (t : Fin cfg0.N) (bb : Fin 16) (i : Fin 150) (B : Fin 2048) (hB : B.val = t.val * 16 + bb.val) :
    blk3 m c t (ix2 bb i) = V m c main_arg3 (ix2 B i) := by
  show V m c main_arg3 (((cfg0.win 3).blk t).view.emb (ix2 bb i)) = V m c main_arg3 (ix2 B i)
  obtain ⟨-, -, e0, e1⟩ := idx_in2 t
  have h : ((cfg0.win 3).blk t).view.emb (ix2 bb i) = ix2 B i := ext2
    (by show win0_3.index t (0 : Fin 2) * 16 + 1 * bb.val = B.val; omega)
    (by show win0_3.index t (1 : Fin 2) * 150 + 1 * i.val = i.val; omega)
  rw [h]

/-- Batch item bb of the blocks at point t is batch item 16·t + bb of the arrays. -/
theorem item_of_block (c : Dev nD) (t : Fin cfg0.N) (bb : Fin 16) (B : Fin 2048) (hB : B.val = t.val * 16 + bb.val) :
    mat (blk0 m c t) bb = mat (V m c main_arg0) B ∧ mat (blk1 m c t) bb = mat (V m c main_arg1) B
    ∧ msk (blk2 m c t) bb = msk (V m c main_arg2) B ∧ msk (blk3 m c t) bb = msk (V m c main_arg3) B :=
  ⟨funext fun i => funext fun d => blk0_apply m c t bb i d B hB,
   funext fun i => funext fun d => blk1_apply m c t bb i d B hB,
   funext fun i => congrArg (FloatOps.sitofp (F := Ideal) .f32) (blk2_apply m c t bb i B hB),
   funext fun i => congrArg (FloatOps.sitofp (F := Ideal) .f32) (blk3_apply m c t bb i B hB)⟩

/-- The batch row of the array that entry bb of point t's block is. -/
def rowOf (t : Fin cfg0.N) (bb : Fin 16) : Fin 2048 :=
  ⟨t.val * 16 + bb.val, by have := t.isLt; have hN : cfg0.N = 128 := N_0; have := bb.isLt; omega⟩

/-! ## The first vector result (output window 4) -/

/-- What point t writes back to the first result is block t of arrA of the argument arrays. -/
theorem flushedA_eq (c : Dev nD) (t : Fin cfg0.N) :
    (dats m 0 c).flushed 4 t = ((cfg0.win 4).blk t).view.read (Elt Ideal)
      (arrA (V m c main_arg0) (V m c main_arg1) (V m c main_arg2) (V m c main_arg3)) := by
  rw [Value.flushed4]
  unfold out0_4
  rw [View.canon_unit_zero hz2]
  simp only [View.ld_unit_zero (S := S16x150x150) hz3, View.ld_unit_zero (S := S16x150) hz2]
  funext y
  obtain ⟨bb, d, rfl⟩ : ∃ (bb : Fin 16) (d : Fin 150), y = ix2 bb d := ⟨y 0, y 1, eq_ix2 y⟩
  obtain ⟨e0, e1, -⟩ := idx_out t
  have hemb : ((cfg0.win 4).blk t).view.emb (ix2 bb d) = ix2 (rowOf t bb) d := ext2
    (by show win0_4.index t (0 : Fin 2) * 16 + 1 * bb.val = t.val * 16 + bb.val; omega)
    (by show win0_4.index t (1 : Fin 2) * 150 + 1 * d.val = d.val; omega)
  obtain ⟨h0, h1, h2, h3⟩ := item_of_block m c t bb (rowOf t bb) rfl
  show k0_pay4 (F := Ideal) (blk0 m c t) (k0_pay8 (blk2 m c t)) (k0_pay12 (blk0 m c t) (blk1 m c t) (blk2 m c t) (blk3 m c t))
      (k0_pay13 (blk0 m c t) (blk1 m c t) (blk2 m c t) (blk3 m c t)) (ix2 bb d)
    = arrA (V m c main_arg0) (V m c main_arg1) (V m c main_arg2) (V m c main_arg3) (((cfg0.win 4).blk t).view.emb (ix2 bb d))
  rw [hemb, arrA_ix, Body.storedA_apply, h0, h1, h2, h3]

theorem mem_blkA (t : Fin cfg0.N) (i : S2048x150.Idx) :
    i ∈ ((cfg0.win 4).blk t).view.set ↔ ∀ a : Fin 2, win0_4.index t a * S16x150.size a ≤ (i a).val ∧ (i a).val < win0_4.index t a * S16x150.size a + S16x150.size a := by
  show i ∈ ((View.whole main_v0_0).slice (win0_4.rect t)).set ↔ _
  rw [View.set_slice_whole, Rect.mem_set_unit]
  exact Iff.rfl

theorem coverA (i : S2048x150.Idx) : ∃ t : Fin cfg0.N, (cfg0.win 4).flush t = true ∧ i ∈ ((cfg0.win 4).blk t).view.set := by
  have hi0 : (i 0).val < 2048 := (i 0).isLt
  have hi1 : (i 1).val < 150 := (i 1).isLt
  obtain ⟨t, ht⟩ := point_of_row ⟨(i 0).val / 16, by omega⟩
  have ht' : t.val = (i 0).val / 16 := ht
  obtain ⟨e0, e1, -⟩ := idx_out t
  refine ⟨t, flush0_4 t, ?_⟩
  rw [mem_blkA]
  intro a
  match a with
  | ⟨0, _⟩ => show win0_4.index t (0 : Fin 2) * 16 ≤ (i 0).val ∧ (i 0).val < win0_4.index t (0 : Fin 2) * 16 + 16; omega
  | ⟨1, _⟩ => show win0_4.index t (1 : Fin 2) * 150 ≤ (i 1).val ∧ (i 1).val < win0_4.index t (1 : Fin 2) * 150 + 150; omega

/-- The first result array after the run. -/
theorem finalA (c : Dev nD) : (dats m 0 c).arrAt 4 cfg0.N
    = arrA (V m c main_arg0) (V m c main_arg1) (V m c main_arg2) (V m c main_arg3) :=
  (dats m 0 c).arrAt_eq_of_cover 4 _ (fun t _ => flushedA_eq m c t) coverA

/-! ## The second vector result (output window 5) -/

/-- What point t writes back to the second result is block t of arrB of the argument arrays. -/
theorem flushedB_eq (c : Dev nD) (t : Fin cfg0.N) :
    (dats m 0 c).flushed 5 t = ((cfg0.win 5).blk t).view.read (Elt Ideal)
      (arrB (V m c main_arg0) (V m c main_arg1) (V m c main_arg2) (V m c main_arg3)) := by
  rw [Value.flushed5]
  unfold out0_5
  rw [View.canon_unit_zero hz2]
  simp only [View.ld_unit_zero (S := S16x150x150) hz3, View.ld_unit_zero (S := S16x150) hz2]
  funext y
  obtain ⟨bb, d, rfl⟩ : ∃ (bb : Fin 16) (d : Fin 150), y = ix2 bb d := ⟨y 0, y 1, eq_ix2 y⟩
  obtain ⟨-, -, e0, e1, -⟩ := idx_out t
  have hemb : ((cfg0.win 5).blk t).view.emb (ix2 bb d) = ix2 (rowOf t bb) d := ext2
    (by show win0_5.index t (0 : Fin 2) * 16 + 1 * bb.val = t.val * 16 + bb.val; omega)
    (by show win0_5.index t (1 : Fin 2) * 150 + 1 * d.val = d.val; omega)
  obtain ⟨h0, h1, h2, h3⟩ := item_of_block m c t bb (rowOf t bb) rfl
  show k0_pay5 (F := Ideal) (blk1 m c t) (k0_pay9 (blk3 m c t)) (k0_pay11 (blk0 m c t) (blk1 m c t) (blk2 m c t) (blk3 m c t)) (ix2 bb d)
    = arrB (V m c main_arg0) (V m c main_arg1) (V m c main_arg2) (V m c main_arg3) (((cfg0.win 5).blk t).view.emb (ix2 bb d))
  rw [hemb, arrB_ix, Body.storedB_apply, h0, h1, h2, h3]

theorem mem_blkB (t : Fin cfg0.N) (i : S2048x150.Idx) :
    i ∈ ((cfg0.win 5).blk t).view.set ↔ ∀ a : Fin 2, win0_5.index t a * S16x150.size a ≤ (i a).val ∧ (i a).val < win0_5.index t a * S16x150.size a + S16x150.size a := by
  show i ∈ ((View.whole main_v0_1).slice (win0_5.rect t)).set ↔ _
  rw [View.set_slice_whole, Rect.mem_set_unit]
  exact Iff.rfl

theorem coverB (i : S2048x150.Idx) : ∃ t : Fin cfg0.N, (cfg0.win 5).flush t = true ∧ i ∈ ((cfg0.win 5).blk t).view.set := by
  have hi0 : (i 0).val < 2048 := (i 0).isLt
  have hi1 : (i 1).val < 150 := (i 1).isLt
  obtain ⟨t, ht⟩ := point_of_row ⟨(i 0).val / 16, by omega⟩
  have ht' : t.val = (i 0).val / 16 := ht
  obtain ⟨-, -, e0, e1, -⟩ := idx_out t
  refine ⟨t, flush0_5 t, ?_⟩
  rw [mem_blkB]
  intro a
  match a with
  | ⟨0, _⟩ => show win0_5.index t (0 : Fin 2) * 16 ≤ (i 0).val ∧ (i 0).val < win0_5.index t (0 : Fin 2) * 16 + 16; omega
  | ⟨1, _⟩ => show win0_5.index t (1 : Fin 2) * 150 ≤ (i 1).val ∧ (i 1).val < win0_5.index t (1 : Fin 2) * 150 + 150; omega

/-- The second result array after the run. -/
theorem finalB (c : Dev nD) : (dats m 0 c).arrAt 5 cfg0.N
    = arrB (V m c main_arg0) (V m c main_arg1) (V m c main_arg2) (V m c main_arg3) :=
  (dats m 0 c).arrAt_eq_of_cover 5 _ (fun t _ => flushedB_eq m c t) coverB

/-! ## alpha (output window 6) -/

/-- What point t writes back to alpha is block t of arrAlpha of the argument arrays. -/
theorem flushedAlpha_eq (c : Dev nD) (t : Fin cfg0.N) :
    (dats m 0 c).flushed 6 t = ((cfg0.win 6).blk t).view.read (Elt Ideal)
      (arrAlpha (V m c main_arg0) (V m c main_arg1) (V m c main_arg2) (V m c main_arg3)) := by
  rw [Value.flushed6]
  unfold out0_6
  rw [View.canon_unit_zero hz3]
  simp only [View.ld_unit_zero (S := S16x150x150) hz3, View.ld_unit_zero (S := S16x150) hz2]
  funext y
  obtain ⟨bb, p, q, rfl⟩ : ∃ (bb : Fin 16) (p : Fin 150) (q : Fin 1), y = ix3 bb p q := ⟨y 0, y 1, y 2, eq_ix3 y⟩
  obtain ⟨-, -, -, -, e0, e1, e2, -⟩ := idx_out t
  have hemb : ((cfg0.win 6).blk t).view.emb (ix3 bb p q) = ix3 (rowOf t bb) p q := ext3
    (by show win0_6.index t (0 : Fin 3) * 16 + 1 * bb.val = t.val * 16 + bb.val; omega)
    (by show win0_6.index t (1 : Fin 3) * 150 + 1 * p.val = p.val; omega)
    (by show win0_6.index t (2 : Fin 3) * 1 + 1 * q.val = q.val; omega)
  obtain ⟨h0, h1, h2, h3⟩ := item_of_block m c t bb (rowOf t bb) rfl
  show k0_pay2 (F := Ideal) (k0_pay11 (blk0 m c t) (blk1 m c t) (blk2 m c t) (blk3 m c t)) (ix3 bb p q)
    = arrAlpha (V m c main_arg0) (V m c main_arg1) (V m c main_arg2) (V m c main_arg3) (((cfg0.win 6).blk t).view.emb (ix3 bb p q))
  rw [hemb, arrAlpha_ix, Body.storedAlpha_apply, h0, h1, h2, h3]

theorem mem_blkAlpha (t : Fin cfg0.N) (i : S2048x150x1.Idx) :
    i ∈ ((cfg0.win 6).blk t).view.set ↔ ∀ a : Fin 3, win0_6.index t a * S16x150x1.size a ≤ (i a).val ∧ (i a).val < win0_6.index t a * S16x150x1.size a + S16x150x1.size a := by
  show i ∈ ((View.whole main_v0_2).slice (win0_6.rect t)).set ↔ _
  rw [View.set_slice_whole, Rect.mem_set_unit]
  exact Iff.rfl

theorem coverAlpha (i : S2048x150x1.Idx) : ∃ t : Fin cfg0.N, (cfg0.win 6).flush t = true ∧ i ∈ ((cfg0.win 6).blk t).view.set := by
  have hi0 : (i 0).val < 2048 := (i 0).isLt
  have hi1 : (i 1).val < 150 := (i 1).isLt
  have hi2 : (i 2).val < 1 := (i 2).isLt
  obtain ⟨t, ht⟩ := point_of_row ⟨(i 0).val / 16, by omega⟩
  have ht' : t.val = (i 0).val / 16 := ht
  obtain ⟨-, -, -, -, e0, e1, e2, -⟩ := idx_out t
  refine ⟨t, flush0_6 t, ?_⟩
  rw [mem_blkAlpha]
  intro a
  match a with
  | ⟨0, _⟩ => show win0_6.index t (0 : Fin 3) * 16 ≤ (i 0).val ∧ (i 0).val < win0_6.index t (0 : Fin 3) * 16 + 16; omega
  | ⟨1, _⟩ => show win0_6.index t (1 : Fin 3) * 150 ≤ (i 1).val ∧ (i 1).val < win0_6.index t (1 : Fin 3) * 150 + 150; omega
  | ⟨2, _⟩ => show win0_6.index t (2 : Fin 3) * 1 ≤ (i 2).val ∧ (i 2).val < win0_6.index t (2 : Fin 3) * 1 + 1; omega

/-- The alpha array after the run. -/
theorem finalAlpha (c : Dev nD) : (dats m 0 c).arrAt 6 cfg0.N
    = arrAlpha (V m c main_arg0) (V m c main_arg1) (V m c main_arg2) (V m c main_arg3) :=
  (dats m 0 c).arrAt_eq_of_cover 6 _ (fun t _ => flushedAlpha_eq m c t) coverAlpha

/-! ## beta (output window 7) -/

/-- What point t writes back to beta is block t of arrBeta of the argument arrays. -/
theorem flushedBeta_eq (c : Dev nD) (t : Fin cfg0.N) :
    (dats m 0 c).flushed 7 t = ((cfg0.win 7).blk t).view.read (Elt Ideal)
      (arrBeta (V m c main_arg0) (V m c main_arg1) (V m c main_arg2) (V m c main_arg3)) := by
  rw [Value.flushed7]
  unfold out0_7
  rw [View.canon_unit_zero hz3]
  simp only [View.ld_unit_zero (S := S16x150x150) hz3, View.ld_unit_zero (S := S16x150) hz2]
  funext y
  obtain ⟨bb, p, q, rfl⟩ : ∃ (bb : Fin 16) (p : Fin 1) (q : Fin 150), y = ix3 bb p q := ⟨y 0, y 1, y 2, eq_ix3 y⟩
  obtain ⟨-, -, -, -, -, -, -, e0, e1, e2⟩ := idx_out t
  have hemb : ((cfg0.win 7).blk t).view.emb (ix3 bb p q) = ix3 (rowOf t bb) p q := ext3
    (by show win0_7.index t (0 : Fin 3) * 16 + 1 * bb.val = t.val * 16 + bb.val; omega)
    (by show win0_7.index t (1 : Fin 3) * 1 + 1 * p.val = p.val; omega)
    (by show win0_7.index t (2 : Fin 3) * 150 + 1 * q.val = q.val; omega)
  obtain ⟨h0, h1, h2, h3⟩ := item_of_block m c t bb (rowOf t bb) rfl
  show k0_pay3 (F := Ideal) (k0_pay12 (blk0 m c t) (blk1 m c t) (blk2 m c t) (blk3 m c t)) (k0_pay13 (blk0 m c t) (blk1 m c t) (blk2 m c t) (blk3 m c t)) (ix3 bb p q)
    = arrBeta (V m c main_arg0) (V m c main_arg1) (V m c main_arg2) (V m c main_arg3) (((cfg0.win 7).blk t).view.emb (ix3 bb p q))
  rw [hemb, arrBeta_ix, Body.storedBeta_apply, h0, h1, h2, h3]

theorem mem_blkBeta (t : Fin cfg0.N) (i : S2048x1x150.Idx) :
    i ∈ ((cfg0.win 7).blk t).view.set ↔ ∀ a : Fin 3, win0_7.index t a * S16x1x150.size a ≤ (i a).val ∧ (i a).val < win0_7.index t a * S16x1x150.size a + S16x1x150.size a := by
  show i ∈ ((View.whole main_v0_3).slice (win0_7.rect t)).set ↔ _
  rw [View.set_slice_whole, Rect.mem_set_unit]
  exact Iff.rfl

theorem coverBeta (i : S2048x1x150.Idx) : ∃ t : Fin cfg0.N, (cfg0.win 7).flush t = true ∧ i ∈ ((cfg0.win 7).blk t).view.set := by
  have hi0 : (i 0).val < 2048 := (i 0).isLt
  have hi1 : (i 1).val < 1 := (i 1).isLt
  have hi2 : (i 2).val < 150 := (i 2).isLt
  obtain ⟨t, ht⟩ := point_of_row ⟨(i 0).val / 16, by omega⟩
  have ht' : t.val = (i 0).val / 16 := ht
  obtain ⟨-, -, -, -, -, -, -, e0, e1, e2⟩ := idx_out t
  refine ⟨t, flush0_7 t, ?_⟩
  rw [mem_blkBeta]
  intro a
  match a with
  | ⟨0, _⟩ => show win0_7.index t (0 : Fin 3) * 16 ≤ (i 0).val ∧ (i 0).val < win0_7.index t (0 : Fin 3) * 16 + 16; omega
  | ⟨1, _⟩ => show win0_7.index t (1 : Fin 3) * 1 ≤ (i 1).val ∧ (i 1).val < win0_7.index t (1 : Fin 3) * 1 + 1; omega
  | ⟨2, _⟩ => show win0_7.index t (2 : Fin 3) * 150 ≤ (i 2).val ∧ (i 2).val < win0_7.index t (2 : Fin 3) * 150 + 150; omega

/-- The beta array after the run. -/
theorem finalBeta (c : Dev nD) : (dats m 0 c).arrAt 7 cfg0.N
    = arrBeta (V m c main_arg0) (V m c main_arg1) (V m c main_arg2) (V m c main_arg3) :=
  (dats m 0 c).arrAt_eq_of_cover 7 _ (fun t _ => flushedBeta_eq m c t) coverBeta

/-! ## The run, with every result array named as a function of the arguments -/

/-- Every weakly fair execution of the kernel's program ends with the four result arrays at the whole-array functions
    of the argument arrays, which are unchanged. -/
theorem run : θ_run defs (onTc (τ := τ) (main (F := Ideal))) ⟨m, fun _ => 0, ρ⟩ fun r => ∀ c : Dev nD,
      r.2.mem ((c : Thread nD τ).loc main_v0_0) = arrA (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = arrB (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = arrAlpha (m ((c : Thread nD τ).loc main_arg0)) (m ((c : Thread nD τ).loc main_arg1)) (m ((c : Thread nD τ).loc main_arg2)) (m ((c : Thread nD τ).loc main_arg3))
      ∧ r.2.mem ((c : Thread nD τ).loc main_v0_3) = arrBeta (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (finalA m c), (h c).2.1.trans (finalB m c),
      (h c).2.2.1.trans (finalAlpha m c), (h c).2.2.2.1.trans (finalBeta m c), (h c).2.2.2.2⟩)
    (Value.run_blocks m ρ)

end Cert.KernelIdeal.Whole

end
-- ==== Proof.RefBody.lean ====
/-
  What the reference computes, entry by entry, for one batch item.

  The reference applies to the whole [2048, 150, 150] arrays the same chain of operations the kernel applies to a
  block: entrywise operations, sums and maxima along one matrix axis, broadcasts along unit axes and matrix products
  batched over the first axis. Read at an index (b, i, j), every stage depends only on batch item b of the
  arguments; this module identifies each stage at such an index with the per-item mathematics of AttnSpec. The
  host's sums start from the zero word, which adds nothing; its maxima start from the −∞ word, as the spec's do.
-/
import proofs.«112214_j65575560675598_1_alg».proof.Proof.Gen.ReferenceIdeal.Read
import proofs.«112214_j65575560675598_1_alg».proof.Proof.LibAxisLayout
import proofs.«112214_j65575560675598_1_alg».proof.Proof.AttnSpec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Attn Cert.Lib.AxisLayout

/-- A host sum's start value, the zero word, adds nothing. -/
theorem zero_word_add (s : EReal) : (Ideal.ofBits .f32 0x00000000#32 : EReal) + s = s := by
  rw [Ideal.ofBits_zero_f32, zero_add]

variable (x0 x1 : (⟨S2048x150x150, .f32⟩ : BufTy).Contents (Elt Ideal)) (x2 x3 : (⟨S2048x150, .i32⟩ : BufTy).Contents (Elt Ideal))

/-! ## The masks, their counts and the score matrix -/

theorem rowMask0_apply (b : Fin 2048) (i d : Fin 150) : val_main_v5 (F := Ideal) x2 (ix3 b i d) = msk x2 b i :=
  (val_main_v5_apply x2 _).trans ((val_main_v4_apply x2 _).trans
    (congrArg (val_main_v0 (F := Ideal) x2) (ext2 rfl rfl : idx_main_v4 (idx_main_v5 (ix3 b i d)) = ix2 b i)))

theorem rowMask1_apply (b : Fin 2048) (i d : Fin 150) : val_main_v8 (F := Ideal) x3 (ix3 b i d) = msk x3 b i :=
  (val_main_v8_apply x3 _).trans ((val_main_v7_apply x3 _).trans
    (congrArg (val_main_v1 (F := Ideal) x3) (ext2 rfl rfl : idx_main_v7 (idx_main_v8 (ix3 b i d)) = ix2 b i)))

theorem masked0_apply (b : Fin 2048) (i d : Fin 150) :
    val_main_v6 (F := Ideal) x0 x2 (ix3 b i d) = mat x0 b i d * msk x2 b i :=
  congrArg (x0 (ix3 b i d) * ·) (rowMask0_apply x2 b i d)

theorem masked1_apply (b : Fin 2048) (i d : Fin 150) :
    val_main_v9 (F := Ideal) x1 x3 (ix3 b i d) = mat x1 b i d * msk x3 b i :=
  congrArg (x1 (ix3 b i d) * ·) (rowMask1_apply x3 b i d)

/-- The reference's score array at (b, i, j) is the score matrix of batch item b. -/
theorem score_apply (b : Fin 2048) (i j : Fin 150) :
    val_main_v10 (F := Ideal) x0 x1 x2 x3 (ix3 b i j) = score (mat x0 b) (mat x1 b) (msk x2 b) (msk x3 b) i j :=
  (val_main_v10_apply x0 x1 x2 x3 _).trans (Finset.sum_congr rfl fun d _ => congrArg₂ (· * ·)
    ((congrArg (val_main_v6 (F := Ideal) x0 x2) (ext3 rfl rfl rfl : lidx_main_v10 (ix3 b i j) d = ix3 b i d)).trans
      (masked0_apply x0 x2 b i d))
    ((congrArg (val_main_v9 (F := Ideal) x1 x3) (ext3 rfl rfl rfl : ridx_main_v10 (ix3 b i j) d = ix3 b j d)).trans
      (masked1_apply x1 x3 b j d)))

theorem score_mat (b : Fin 2048) :
    mat (val_main_v10 (F := Ideal) x0 x1 x2 x3) b = score (mat x0 b) (mat x1 b) (msk x2 b) (msk x3 b) :=
  funext fun i => funext fun j => score_apply x0 x1 x2 x3 b i j

/-- The number of unmasked rows of the first input, at batch item b. -/
theorem nums0_apply (b : Fin 2048) (d : Fin 150) : val_main_v48 (F := Ideal) x2 (ix2 b d) = ∑ j : Fin 150, msk x2 b j :=
  (val_main_v48_apply x2 _).trans ((val_main_v47_apply x2 _).trans
    ((congrArg (val_main_v2 (F := Ideal) x2) (ext1 rfl : idx_main_v47 (idx_main_v48 (ix2 b d)) = ix1 b)).trans
      ((val_main_v2_apply x2 _).trans ((zero_word_add _).trans (Finset.sum_congr rfl fun k _ =>
        congrArg (val_main_v0 (F := Ideal) x2) (ext2 rfl rfl : idx_main_v2 (ix1 b) k = ix2 b k))))))

/-- The number of unmasked rows of the second input, at batch item b. -/
theorem nums1_apply (b : Fin 2048) (d : Fin 150) : val_main_v51 (F := Ideal) x3 (ix2 b d) = ∑ j : Fin 150, msk x3 b j :=
  (val_main_v51_apply x3 _).trans ((val_main_v50_apply x3 _).trans
    ((congrArg (val_main_v3 (F := Ideal) x3) (ext1 rfl : idx_main_v50 (idx_main_v51 (ix2 b d)) = ix1 b)).trans
      ((val_main_v3_apply x3 _).trans ((zero_word_add _).trans (Finset.sum_congr rfl fun k _ =>
        congrArg (val_main_v1 (F := Ideal) x3) (ext2 rfl rfl : idx_main_v3 (ix1 b) k = ix2 b k))))))

/-! ## The column softmax -/

local notation "Sc" => val_main_v10 (F := Ideal) x0 x1 x2 x3

theorem reduces_mid : S2048x150x150.Reduces [1] S2048x150 := by decide
theorem reduces_last : S2048x150x150.Reduces [2] S2048x150 := by decide

/-- The host's maximum down column j of batch item b, before the comparison with −∞. -/
theorem rawColMax_apply (b : Fin 2048) (j : Fin 150) :
    val_main_v11 (F := Ideal) x0 x1 x2 x3 (ix2 b j)
      = (Finset.univ : Finset (Fin 150)).fold max negInf (fun i => Sc (ix3 b i j)) := by
  unfold val_main_v11
  generalize val_main_v10 (F := Ideal) x0 x1 x2 x3 = S
  refine (Host.reduce_eq_fold_single (FloatOps.maximumf (F := Ideal) (φ := .f32)) S (val_main_cst_1 (F := Ideal))
    reducesTo_S2048x150x150_S2048x150_d1 reduces_mid h_S_ (ix2 b j)).trans ?_
  exact congrArg (fun f => (Finset.univ : Finset (Fin 150)).fold max negInf f)
    (funext fun i => congrArg S (lift_abc_mid reduces_mid b j i))

theorem colMax_apply (b : Fin 2048) (j : Fin 150) :
    val_main_v13 (F := Ideal) x0 x1 x2 x3 (ix2 b j) = colMax (mat Sc b) j := by
  unfold colMax
  rw [val_main_v13_apply, Ideal.maximumf_def, rawColMax_apply x0 x1 x2 x3 b j, val_main_v12_apply, val_main_cst_2_apply,
    Ideal.ofBits_def]

theorem colMaxB_apply (b : Fin 2048) (i j : Fin 150) :
    val_main_v15 (F := Ideal) x0 x1 x2 x3 (ix3 b i j) = colMax (mat Sc b) j := by
  rw [val_main_v15_apply, val_main_v14_apply, (ext2 rfl rfl : idx_main_v14 (idx_main_v15 (ix3 b i j)) = ix2 b j),
    colMax_apply]

theorem colExp_apply (b : Fin 2048) (i j : Fin 150) :
    val_main_v17 (F := Ideal) x0 x1 x2 x3 (ix3 b i j) = colExp (mat Sc b) i j := by
  unfold colExp
  rw [val_main_v17_apply, Ideal.hostUnary_exp_def, val_main_v16_apply, Ideal.subf_def, colMaxB_apply]

theorem colSum_apply (b : Fin 2048) (i j : Fin 150) :
    val_main_v20 (F := Ideal) x0 x1 x2 x3 (ix3 b i j) = colSum (mat Sc b) j := by
  unfold colSum
  rw [val_main_v20_apply, val_main_v19_apply, (ext2 rfl rfl : idx_main_v19 (idx_main_v20 (ix3 b i j)) = ix2 b j),
    val_main_v18_apply, val_main_cst_3_apply, Ideal.ofBits_def, Ideal.ofBits_zero_f32, zero_add]
  exact Finset.sum_congr rfl fun k _ => by
    rw [(ext3 rfl rfl rfl : idx_main_v18 (ix2 b j) k = ix3 b k j), colExp_apply]

theorem colSoft_apply (b : Fin 2048) (i j : Fin 150) :
    val_main_v21 (F := Ideal) x0 x1 x2 x3 (ix3 b i j) = colSoft (mat Sc b) i j := by
  unfold colSoft
  rw [val_main_v21_apply, Ideal.hostDivf_def, colExp_apply, colSum_apply]

/-! ## The row softmax -/

/-- The host's maximum along row i of batch item b, before the comparison with −∞. -/
theorem rawRowMax_apply (b : Fin 2048) (i : Fin 150) :
    val_main_v22 (F := Ideal) x0 x1 x2 x3 (ix2 b i)
      = (Finset.univ : Finset (Fin 150)).fold max negInf (fun j => Sc (ix3 b i j)) := by
  unfold val_main_v22
  generalize val_main_v10 (F := Ideal) x0 x1 x2 x3 = S
  refine (Host.reduce_eq_fold_single (FloatOps.maximumf (F := Ideal) (φ := .f32)) S (val_main_cst_4 (F := Ideal))
    reducesTo_S2048x150x150_S2048x150_d2 reduces_last h_S_ (ix2 b i)).trans ?_
  exact congrArg (fun f => (Finset.univ : Finset (Fin 150)).fold max negInf f)
    (funext fun j => congrArg S (lift_abc_last reduces_last b i j))

theorem rowMax_apply (b : Fin 2048) (i : Fin 150) :
    val_main_v24 (F := Ideal) x0 x1 x2 x3 (ix2 b i) = rowMax (mat Sc b) i := by
  unfold rowMax
  rw [val_main_v24_apply, Ideal.maximumf_def, rawRowMax_apply x0 x1 x2 x3 b i, val_main_v23_apply, val_main_cst_5_apply,
    Ideal.ofBits_def]

theorem rowMaxB_apply (b : Fin 2048) (i j : Fin 150) :
    val_main_v26 (F := Ideal) x0 x1 x2 x3 (ix3 b i j) = rowMax (mat Sc b) i := by
  rw [val_main_v26_apply, val_main_v25_apply, (ext2 rfl rfl : idx_main_v25 (idx_main_v26 (ix3 b i j)) = ix2 b i),
    rowMax_apply]

theorem rowExp_apply (b : Fin 2048) (i j : Fin 150) :
    val_main_v28 (F := Ideal) x0 x1 x2 x3 (ix3 b i j) = rowExp (mat Sc b) i j := by
  unfold rowExp
  rw [val_main_v28_apply, Ideal.hostUnary_exp_def, val_main_v27_apply, Ideal.subf_def, rowMaxB_apply]

theorem rowSum_apply (b : Fin 2048) (i j : Fin 150) :
    val_main_v31 (F := Ideal) x0 x1 x2 x3 (ix3 b i j) = rowSum (mat Sc b) i := by
  unfold rowSum
  rw [val_main_v31_apply, val_main_v30_apply, (ext2 rfl rfl : idx_main_v30 (idx_main_v31 (ix3 b i j)) = ix2 b i),
    val_main_v29_apply, val_main_cst_6_apply, Ideal.ofBits_def, Ideal.ofBits_zero_f32, zero_add]
  exact Finset.sum_congr rfl fun k _ => by
    rw [(ext3 rfl rfl rfl : idx_main_v29 (ix2 b i) k = ix3 b i k), rowExp_apply]

theorem rowSoft_apply (b : Fin 2048) (i j : Fin 150) :
    val_main_v32 (F := Ideal) x0 x1 x2 x3 (ix3 b i j) = rowSoft (mat Sc b) i j := by
  unfold rowSoft
  rw [val_main_v32_apply, Ideal.hostDivf_def, rowExp_apply, rowSum_apply]

/-! ## The means and the weight vectors -/

/-- alpha at (b, i, ·): the mean of row i of the column softmax. -/
theorem alpha_apply (b : Fin 2048) (i : Fin 150) (u : Fin 1) :
    val_main_v36 (F := Ideal) x0 x1 x2 x3 (ix3 b i u) = meanRows (colSoft (mat Sc b)) i := by
  unfold meanRows
  rw [val_main_v36_apply, Ideal.hostDivf_def, val_main_v35_apply, val_main_cst_8_apply, Ideal.ofBits_def,
    val_main_v34_apply, (ext2 rfl rfl : idx_main_v34 (ix3 b i u) = ix2 b i),
    val_main_v33_apply, val_main_cst_7_apply, Ideal.ofBits_def, Ideal.ofBits_zero_f32, zero_add]
  refine congrArg (Ideal.div · len) (Finset.sum_congr rfl fun k _ => ?_)
  rw [(ext3 rfl rfl rfl : idx_main_v33 (ix2 b i) k = ix3 b i k), colSoft_apply]

/-- beta at (b, ·, j): the mean of column j of the row softmax. -/
theorem beta_apply (b : Fin 2048) (u : Fin 1) (j : Fin 150) :
    val_main_v40 (F := Ideal) x0 x1 x2 x3 (ix3 b u j) = meanCols (rowSoft (mat Sc b)) j := by
  unfold meanCols
  rw [val_main_v40_apply, Ideal.hostDivf_def, val_main_v39_apply, val_main_cst_10_apply, Ideal.ofBits_def,
    val_main_v38_apply, (ext2 rfl rfl : idx_main_v38 (ix3 b u j) = ix2 b j),
    val_main_v37_apply, val_main_cst_9_apply, Ideal.ofBits_def, Ideal.ofBits_zero_f32, zero_add]
  refine congrArg (Ideal.div · len) (Finset.sum_congr rfl fun k _ => ?_)
  rw [(ext3 rfl rfl rfl : idx_main_v37 (ix2 b j) k = ix3 b k j), rowSoft_apply]

/-- The column means of the row softmax against its rows, at (b, ·, k). -/
theorem gammaA_apply (b : Fin 2048) (u : Fin 1) (k : Fin 150) :
    val_main_v41 (F := Ideal) x0 x1 x2 x3 (ix3 b u k) = gammaA (rowSoft (mat Sc b)) k := by
  unfold gammaA
  rw [val_main_v41_apply]
  refine Finset.sum_congr rfl fun j _ => ?_
  rw [(ext3 rfl rfl rfl : lidx_main_v41 (ix3 b u k) j = ix3 b u j), (ext3 rfl rfl rfl : ridx_main_v41 (ix3 b u k) j = ix3 b k j),
    beta_apply, rowSoft_apply]

/-- The row means of the column softmax against its columns, at (b, ·, k). -/
theorem gammaB_apply (b : Fin 2048) (u : Fin 1) (k : Fin 150) :
    val_main_v42 (F := Ideal) x0 x1 x2 x3 (ix3 b u k) = gammaB (colSoft (mat Sc b)) k := by
  unfold gammaB
  rw [val_main_v42_apply]
  refine Finset.sum_congr rfl fun j _ => ?_
  rw [(ext3 rfl rfl rfl : lidx_main_v42 (ix3 b u k) j = ix3 b j u), (ext3 rfl rfl rfl : ridx_main_v42 (ix3 b u k) j = ix3 b j k),
    alpha_apply, colSoft_apply]

/-! ## The four results, per batch item -/

theorem reshape_row (b : Fin 2048) (d : Fin 150) : idx_main_v44 (ix2 b d) = ix3 b (0 : Fin 1) d :=
  ext3 (by have := d.isLt; show (b.val * 150 + d.val) / 150 = b.val; omega) rfl
    (by have := d.isLt; show (b.val * 150 + d.val) % 150 = d.val; omega)

theorem reshape_row' (b : Fin 2048) (d : Fin 150) : idx_main_v46 (ix2 b d) = ix3 b (0 : Fin 1) d :=
  ext3 (by have := d.isLt; show (b.val * 150 + d.val) / 150 = b.val; omega) rfl
    (by have := d.isLt; show (b.val * 150 + d.val) % 150 = d.val; omega)

/-- The first result at (b, d). -/
theorem resA_apply (b : Fin 2048) (d : Fin 150) :
    val_main_v49 (F := Ideal) x0 x1 x2 x3 (ix2 b d) = resA (mat x0 b) (mat x1 b) (msk x2 b) (msk x3 b) d := by
  unfold resA outVec
  rw [← score_mat x0 x1 x2 x3 b, val_main_v49_apply, Ideal.hostDivf_def, nums0_apply, val_main_v44_apply, reshape_row,
    val_main_v43_apply]
  refine congrArg (Ideal.div · _) (Finset.sum_congr rfl fun j _ => ?_)
  rw [(ext3 rfl rfl rfl : lidx_main_v43 (ix3 b (0 : Fin 1) d) j = ix3 b (0 : Fin 1) j),
    (ext3 rfl rfl rfl : ridx_main_v43 (ix3 b (0 : Fin 1) d) j = ix3 b j d), gammaA_apply]

/-- The second result at (b, d). -/
theorem resB_apply (b : Fin 2048) (d : Fin 150) :
    val_main_v52 (F := Ideal) x0 x1 x2 x3 (ix2 b d) = resB (mat x0 b) (mat x1 b) (msk x2 b) (msk x3 b) d := by
  unfold resB outVec
  rw [← score_mat x0 x1 x2 x3 b, val_main_v52_apply, Ideal.hostDivf_def, nums1_apply, val_main_v46_apply, reshape_row',
    val_main_v45_apply]
  refine congrArg (Ideal.div · _) (Finset.sum_congr rfl fun j _ => ?_)
  rw [(ext3 rfl rfl rfl : lidx_main_v45 (ix3 b (0 : Fin 1) d) j = ix3 b (0 : Fin 1) j),
    (ext3 rfl rfl rfl : ridx_main_v45 (ix3 b (0 : Fin 1) d) j = ix3 b j d), gammaB_apply]

/-- The third result (alpha) at (b, i, ·). -/
theorem resAlpha_apply (b : Fin 2048) (i : Fin 150) (u : Fin 1) :
    val_main_v36 (F := Ideal) x0 x1 x2 x3 (ix3 b i u) = resAlpha (mat x0 b) (mat x1 b) (msk x2 b) (msk x3 b) i := by
  unfold resAlpha
  rw [← score_mat x0 x1 x2 x3 b]
  exact alpha_apply x0 x1 x2 x3 b i u

/-- The fourth result (beta) at (b, ·, j). -/
theorem resBeta_apply (b : Fin 2048) (u : Fin 1) (j : Fin 150) :
    val_main_v40 (F := Ideal) x0 x1 x2 x3 (ix3 b u j) = resBeta (mat x0 b) (mat x1 b) (msk x2 b) (msk x3 b) j := by
  unfold resBeta
  rw [← score_mat x0 x1 x2 x3 b]
  exact beta_apply x0 x1 x2 x3 b u j

end Cert.ReferenceIdeal.RefValue

end
-- ==== Proof.RefArrays.lean ====
/-
  The reference's four results as whole-array functions of the arguments.

  Each result of the reference, read at an index, is the per-item function of batch item b of the arguments
  (RefBody); so each result array is the whole-array function of AttnArrays.
-/
import proofs.«112214_j65575560675598_1_alg».proof.Proof.RefBody
import proofs.«112214_j65575560675598_1_alg».proof.Proof.AttnArrays

noncomputable section

namespace Cert.ReferenceIdeal.RefValue

open Cert.ReferenceIdeal Cert.ReferenceIdeal.Gen Cert.ReferenceIdeal.Read Idealize.ShloMosaic Idealize.ShloMosaic.ValueIdx
open Cert.Attn

variable (x0 x1 : (⟨S2048x150x150, .f32⟩ : BufTy).Contents (Elt Ideal)) (x2 x3 : (⟨S2048x150, .i32⟩ : BufTy).Contents (Elt Ideal))

theorem refA : val_main_v49 (F := Ideal) x0 x1 x2 x3 = arrA x0 x1 x2 x3 := by
  funext y
  obtain ⟨b, d, rfl⟩ : ∃ (b : Fin 2048) (d : Fin 150), y = ix2 b d := ⟨y 0, y 1, eq_ix2 y⟩
  exact (resA_apply x0 x1 x2 x3 b d).trans (arrA_ix x0 x1 x2 x3 b d).symm

theorem refB : val_main_v52 (F := Ideal) x0 x1 x2 x3 = arrB x0 x1 x2 x3 := by
  funext y
  obtain ⟨b, d, rfl⟩ : ∃ (b : Fin 2048) (d : Fin 150), y = ix2 b d := ⟨y 0, y 1, eq_ix2 y⟩
  exact (resB_apply x0 x1 x2 x3 b d).trans (arrB_ix x0 x1 x2 x3 b d).symm

theorem refAlpha : val_main_v36 (F := Ideal) x0 x1 x2 x3 = arrAlpha x0 x1 x2 x3 := by
  funext y
  obtain ⟨b, i, u, rfl⟩ : ∃ (b : Fin 2048) (i : Fin 150) (u : Fin 1), y = ix3 b i u := ⟨y 0, y 1, y 2, eq_ix3 y⟩
  exact (resAlpha_apply x0 x1 x2 x3 b i u).trans (arrAlpha_ix x0 x1 x2 x3 b i u).symm

theorem refBeta : val_main_v40 (F := Ideal) x0 x1 x2 x3 = arrBeta x0 x1 x2 x3 := by
  funext y
  obtain ⟨b, u, j, rfl⟩ : ∃ (b : Fin 2048) (u : Fin 1) (j : Fin 150), y = ix3 b u j := ⟨y 0, y 1, y 2, eq_ix3 y⟩
  exact (resBeta_apply x0 x1 x2 x3 b u j).trans (arrBeta_ix x0 x1 x2 x3 b u j).symm

end Cert.ReferenceIdeal.RefValue

end
-- ==== Proof.lean ====
/-
  The kernel and the reference compute the same four arrays over the extended reals.

  Both programs apply, to every batch item independently, the same chain: rows scaled by their masks, the score
  matrix of the two scaled inputs, a softmax down the columns and one along the rows, the row means of the first and
  the column means of the second, those means contracted against the other softmax, and the two resulting weight
  vectors contracted against the inputs and divided by the numbers of unmasked rows. The kernel does it block by
  block (16 batch items per grid point), the reference on the whole arrays; sums and maxima over one axis are the same
  finite sums and folds on both sides, the matrix products the same sums of products, and a change of float format is
  the identity at the extended reals. So each result array of either program is the one whole-array function of the
  arguments stated in AttnArrays: for the kernel by KValue (the blocks cover the arrays), for the reference by
  RefArrays. No finiteness of the inputs is needed: no sum is re-associated across a product.
  The three frames are the generated frame runs (the reference's its generated run with the results dropped), and
  the idealization rewrote nothing, so its statement is trivial.
-/
import proofs.«112214_j65575560675598_1_alg».proof.Defs
import proofs.«112214_j65575560675598_1_alg».proof.Proof.Gen.Kernel
import proofs.«112214_j65575560675598_1_alg».proof.Proof.Gen.Kernel.Skeleton
import proofs.«112214_j65575560675598_1_alg».proof.Proof.Gen.Kernel.Launch
import proofs.«112214_j65575560675598_1_alg».proof.Proof.Gen.Kernel.Points
import proofs.«112214_j65575560675598_1_alg».proof.Proof.Gen.Kernel.Frame
import proofs.«112214_j65575560675598_1_alg».proof.Proof.Gen.KernelIdeal
import proofs.«112214_j65575560675598_1_alg».proof.Proof.Gen.KernelIdeal.Skeleton
import proofs.«112214_j65575560675598_1_alg».proof.Proof.Gen.KernelIdeal.Launch
import proofs.«112214_j65575560675598_1_alg».proof.Proof.Gen.KernelIdeal.Points
import proofs.«112214_j65575560675598_1_alg».proof.Proof.Gen.KernelIdeal.Frame
import proofs.«112214_j65575560675598_1_alg».proof.Proof.Gen.ReferenceIdeal
import proofs.«112214_j65575560675598_1_alg».proof.Proof.Gen.Pre_finite_inputs
import proofs.«112214_j65575560675598_1_alg».proof.Proof.Gen.KernelIdeal.Value
import proofs.«112214_j65575560675598_1_alg».proof.Proof.Gen.ReferenceIdeal.Run
import proofs.«112214_j65575560675598_1_alg».proof.Proof.Gen.ReferenceIdeal.Read
import proofs.«112214_j65575560675598_1_alg».proof.Proof.KValue
import proofs.«112214_j65575560675598_1_alg».proof.Proof.RefArrays
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2.2) (Cert.ReferenceIdeal.Value.run (F := Ideal) m ρ)

/-- Both runs end with the four result arrays at the same whole-array functions of the (agreeing) arguments. -/
theorem algebraic : Cert.algebraic_KernelIdeal_ReferenceIdeal := by
  intro m ρ m' ρ' _ hagree
  refine ⟨_, _, _, _, Cert.KernelIdeal.Whole.run m ρ, ?_⟩
  refine (θ_run Cert.ReferenceIdeal.defs _ _).mono (fun _ h c => ?_) (Cert.ReferenceIdeal.Value.run (F := Ideal) m' ρ')
  obtain ⟨h0, h1, h2, h3, hrest⟩ := h c
  obtain ⟨a0, a1, a2, a3⟩ := hagree c
  refine ⟨?_, ?_, ?_, ?_, hrest⟩
  · rw [h0, Cert.ReferenceIdeal.Read.val_main_v49_eq, Cert.ReferenceIdeal.RefValue.refA, a0, a1, a2, a3]
  · rw [h1, Cert.ReferenceIdeal.Read.val_main_v52_eq, Cert.ReferenceIdeal.RefValue.refB, a0, a1, a2, a3]
  · rw [h2, Cert.ReferenceIdeal.Read.val_main_v36_eq, Cert.ReferenceIdeal.RefValue.refAlpha, a0, a1, a2, a3]
  · rw [h3, Cert.ReferenceIdeal.Read.val_main_v40_eq, Cert.ReferenceIdeal.RefValue.refBeta, a0, a1, a2, a3]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
